-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x32 : Shape := ⟨4, ![4, 32, 32, 32]⟩
abbrev S3x3x32x64 : Shape := ⟨4, ![3, 3, 32, 64]⟩
abbrev S64 : Shape := ⟨1, ![64]⟩
abbrev S_ : Shape := ⟨0, ![]⟩

class Facts : Prop where
  bcast_S_S4x32x32x32 : S_.BroadcastsInDim S4x32x32x32 (![] : Fin 0 → Fin S4x32x32x32.rank)
  reducesTo_S4x32x32x32_S_d0_1_2_3 : S4x32x32x32.ReducesTo [0, 1, 2, 3] S_
  h_S_ : 0 < S_.numel
  bcast_S_S3x3x32x64 : S_.BroadcastsInDim S3x3x32x64 (![] : Fin 0 → Fin S3x3x32x64.rank)
  reducesTo_S3x3x32x64_S_d0_1_2_3 : S3x3x32x64.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4x32x32x32 .f32) (main_arg1 : FVec F S3x3x32x64 .f32) (main_arg2 : FVec F S3x3x32x64 .f32) (main_arg3 : FVec F S64 .f32) : IVec S_ 1 :=
  let main_v0 : FVec F S4x32x32x32 .f32 := Host.absf main_arg0
  let main_cst : FVec F S_ .f32 := constant S_ .f32 0x7F800000#32
  let main_v1 : FVec F S4x32x32x32 .f32 := broadcastInDim S4x32x32x32 ![] bcast_S_S4x32x32x32 main_cst
  let main_v2 : IVec S4x32x32x32 1 := cmpf .olt main_v0 main_v1
  let main_c : IVec S_ 1 := constantI S_ 1 1#1
  let main_v3 : IVec S_ 1 := (fun x v => Host.reduce IntOp.andi x v reducesTo_S4x32x32x32_S_d0_1_2_3 h_S_) main_v2 main_c
  let main_v4 : FVec F S3x3x32x64 .f32 := Host.absf main_arg1
  let main_cst_0 : FVec F S_ .f32 := constant S_ .f32 0x7F800000#32
  let main_v5 : FVec F S3x3x32x64 .f32 := broadcastInDim S3x3x32x64 ![] bcast_S_S3x3x32x64 main_cst_0
  let main_v6 : IVec S3x3x32x64 1 := cmpf .olt main_v4 main_v5
  let main_c_1 : IVec S_ 1 := constantI S_ 1 1#1
  let main_v7 : IVec S_ 1 := (fun x v => Host.reduce IntOp.andi x v reducesTo_S3x3x32x64_S_d0_1_2_3 h_S_) main_v6 main_c_1
  let main_v8 : IVec S_ 1 := andi main_v3 main_v7
  let main_v9 : FVec F S3x3x32x64 .f32 := Host.absf main_arg2
  let main_cst_2 : FVec F S_ .f32 := constant S_ .f32 0x7F800000#32
  let main_v10 : FVec F S3x3x32x64 .f32 := broadcastInDim S3x3x32x64 ![] bcast_S_S3x3x32x64 main_cst_2
  let main_v11 : IVec S3x3x32x64 1 := cmpf .olt main_v9 main_v10
  let main_c_3 : IVec S_ 1 := constantI S_ 1 1#1
  let main_v12 : IVec S_ 1 := (fun x v => Host.reduce IntOp.andi x v reducesTo_S3x3x32x64_S_d0_1_2_3 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4x32x32x32 : Shape := ⟨4, ![4, 32, 32, 32]⟩
abbrev S3x3x32x64 : Shape := ⟨4, ![3, 3, 32, 64]⟩
abbrev S64 : Shape := ⟨1, ![64]⟩
abbrev S288x64 : Shape := ⟨2, ![288, 64]⟩
abbrev S288x128 : Shape := ⟨2, ![288, 128]⟩
abbrev S4x32x30x30 : Shape := ⟨4, ![4, 32, 30, 30]⟩
abbrev S4x288x30x30 : Shape := ⟨4, ![4, 288, 30, 30]⟩
abbrev S4x30x30x288 : Shape := ⟨4, ![4, 30, 30, 288]⟩
abbrev S4x900x288 : Shape := ⟨3, ![4, 900, 288]⟩
abbrev S_ : Shape := ⟨0, ![]⟩
abbrev S4x1x900x288 : Shape := ⟨4, ![4, 1, 900, 288]⟩
abbrev S4x2x900x288 : Shape := ⟨4, ![4, 2, 900, 288]⟩
abbrev S8x900x288 : Shape := ⟨3, ![8, 900, 288]⟩
abbrev S8x900x128 : Shape := ⟨3, ![8, 900, 128]⟩
abbrev S1x900x288 : Shape := ⟨3, ![1, 900, 288]⟩
abbrev S1x900x128 : Shape := ⟨3, ![1, 900, 128]⟩
abbrev S900x288 : Shape := ⟨2, ![900, 288]⟩
abbrev S900x128 : Shape := ⟨2, ![900, 128]⟩
abbrev S4x2x900x128 : Shape := ⟨4, ![4, 2, 900, 128]⟩
abbrev S4x1x900x64 : Shape := ⟨4, ![4, 1, 900, 64]⟩
abbrev S4x900x64 : Shape := ⟨3, ![4, 900, 64]⟩
abbrev S1x1x64 : Shape := ⟨3, ![1, 1, 64]⟩
abbrev S4x30x30x64 : Shape := ⟨4, ![4, 30, 30, 64]⟩
abbrev S4x64x30x30 : Shape := ⟨4, ![4, 64, 30, 30]⟩

abbrev nBuf : Space → Nat
  | .hbm => 74
  | .vmem => 8
  | .smem => 0
  | _ => 0

abbrev bufTy : (tb : Table) → Fin (tcTables nBuf tb) → BufTy
  | .hbm, ⟨0, _⟩ => ⟨S4x32x32x32, .f32⟩
  | .hbm, ⟨1, _⟩ => ⟨S3x3x32x64, .f32⟩
  | .hbm, ⟨2, _⟩ => ⟨S3x3x32x64, .f32⟩
  | .hbm, ⟨3, _⟩ => ⟨S64, .f32⟩
  | .hbm, ⟨4, _⟩ => ⟨S288x64, .f32⟩
  | .hbm, ⟨5, _⟩ => ⟨S288x64, .f32⟩
  | .hbm, ⟨6, _⟩ => ⟨S288x128, .f32⟩
  | .hbm, ⟨7, _⟩ => ⟨S4x32x30x30, .f32⟩
  | .hbm, ⟨8, _⟩ => ⟨S4x32x30x30, .f32⟩
  | .hbm, ⟨9, _⟩ => ⟨S4x32x30x30, .f32⟩
  | .hbm, ⟨10, _⟩ => ⟨S4x32x30x30, .f32⟩
  | .hbm, ⟨11, _⟩ => ⟨S4x32x30x30, .f32⟩
  | .hbm, ⟨12, _⟩ => ⟨S4x32x30x30, .f32⟩
  | .hbm, ⟨13, _⟩ => ⟨S4x32x30x30, .f32⟩
  | .hbm, ⟨14, _⟩ => ⟨S4x32x30x30, .f32⟩
  | .hbm, ⟨15, _⟩ => ⟨S4x32x30x30, .f32⟩
  | .hbm, ⟨16, _⟩ => ⟨S4x288x30x30, .f32⟩
  | .hbm, ⟨17, _⟩ => ⟨S4x30x30x288, .f32⟩
  | .hbm, ⟨18, _⟩ => ⟨S4x900x288, .f32⟩
  | .hbm, ⟨19, _⟩ => ⟨S4x32x32x32, .f32⟩
  | .hbm, ⟨20, _⟩ => ⟨S4x32x30x30, .f32⟩
  | .hbm, ⟨21, _⟩ => ⟨S4x32x30x30, .f32⟩
  | .hbm, ⟨22, _⟩ => ⟨S4x32x30x30, .f32⟩
  | .hbm, ⟨23, _⟩ => ⟨S4x32x30x30, .f32⟩
  | .hbm, ⟨24, _⟩ => ⟨S4x32x30x30, .f32⟩
  | .hbm, ⟨25, _⟩ => ⟨S4x32x30x30, .f32⟩
  | .hbm, ⟨26, _⟩ => ⟨S4x32x30x30, .f32⟩
  | .hbm, ⟨27, _⟩ => ⟨S4x32x30x30, .f32⟩
  | .hbm, ⟨28, _⟩ => ⟨S4x32x30x30, .f32⟩
  | .hbm, ⟨29, _⟩ => ⟨S4x288x30x30, .f32⟩
  | .hbm, ⟨30, _⟩ => ⟨S4x30x30x288, .f32⟩
  | .hbm, ⟨31, _⟩ => ⟨S4x900x288, .f32⟩
  | .hbm, ⟨32, _⟩ => ⟨S_, .f32⟩
  | .hbm, ⟨33, _⟩ => ⟨S4x900x288, .f32⟩
  | .hbm, ⟨34, _⟩ => ⟨S4x900x288, .f32⟩
  | .hbm, ⟨35, _⟩ => ⟨S_, .f32⟩
  | .hbm, ⟨36, _⟩ => ⟨S4x900x288, .f32⟩
  | .hbm, ⟨37, _⟩ => ⟨S4x900x288, .f32⟩
  | .hbm, ⟨38, _⟩ => ⟨S4x900x288, .f32⟩
  | .hbm, ⟨39, _⟩ => ⟨S4x900x288, .f32⟩
  | .hbm, ⟨40, _⟩ => ⟨S4x900x288, .f32⟩
  | .hbm, ⟨41, _⟩ => ⟨S4x900x288, .f32⟩
  | .hbm, ⟨42, _⟩ => ⟨S4x1x900x288, .f32⟩
  | .hbm, ⟨43, _⟩ => ⟨S4x1x900x288, .f32⟩
  | .hbm, ⟨44, _⟩ => ⟨S4x2x900x288, .f32⟩
  | .hbm, ⟨45, _⟩ => ⟨S8x900x288, .f32⟩
  | .hbm, ⟨46, _⟩ => ⟨S8x900x288, .bf16⟩
  | .hbm, ⟨47, _⟩ => ⟨S4x1x900x288, .f32⟩
  | .hbm, ⟨48, _⟩ => ⟨S4x1x900x288, .f32⟩
  | .hbm, ⟨49, _⟩ => ⟨S4x2x900x288, .f32⟩
  | .hbm, ⟨50, _⟩ => ⟨S8x900x288, .f32⟩
  | .hbm, ⟨51, _⟩ => ⟨S8x900x288, .bf16⟩
  | .hbm, ⟨52, _⟩ => ⟨S288x128, .f32⟩
  | .hbm, ⟨53, _⟩ => ⟨S288x128, .f32⟩
  | .hbm, ⟨54, _⟩ => ⟨S288x128, .bf16⟩
  | .hbm, ⟨55, _⟩ => ⟨S288x128, .bf16⟩
  | .hbm, ⟨56, _⟩ => ⟨S8x900x128, .f32⟩
  | .hbm, ⟨57, _⟩ => ⟨S4x2x900x128, .f32⟩
  | .hbm, ⟨58, _⟩ => ⟨S4x1x900x64, .f32⟩
  | .hbm, ⟨59, _⟩ => ⟨S4x900x64, .f32⟩
  | .hbm, ⟨60, _⟩ => ⟨S4x1x900x64, .f32⟩
  | .hbm, ⟨61, _⟩ => ⟨S4x900x64, .f32⟩
  | .hbm, ⟨62, _⟩ => ⟨S4x1x900x64, .f32⟩
  | .hbm, ⟨63, _⟩ => ⟨S4x900x64, .f32⟩
  | .hbm, ⟨64, _⟩ => ⟨S4x1x900x64, .f32⟩
  | .hbm, ⟨65, _⟩ => ⟨S4x900x64, .f32⟩
  | .hbm, ⟨66, _⟩ => ⟨S4x900x64, .f32⟩
  | .hbm, ⟨67, _⟩ => ⟨S4x900x64, .f32⟩
  | .hbm, ⟨68, _⟩ => ⟨S4x900x64, .f32⟩
  | .hbm, ⟨69, _⟩ => ⟨S1x1x64, .f32⟩
  | .hbm, ⟨70, _⟩ => ⟨S4x900x64, .f32⟩
  | .hbm, ⟨71, _⟩ => ⟨S4x900x64, .f32⟩
  | .hbm, ⟨72, _⟩ => ⟨S4x30x30x64, .f32⟩
  | .hbm, ⟨73, _⟩ => ⟨S4x64x30x30, .f32⟩
  | .local _ .vmem, ⟨0, _⟩ => ⟨S1x900x288, .bf16⟩
  | .local _ .vmem, ⟨1, _⟩ => ⟨S1x900x288, .bf16⟩
  | .local _ .vmem, ⟨2, _⟩ => ⟨S1x900x288, .bf16⟩
  | .local _ .vmem, ⟨3, _⟩ => ⟨S1x900x288, .bf16⟩
  | .local _ .vmem, ⟨4, _⟩ => ⟨S288x128, .bf16⟩
  | .local _ .vmem, ⟨5, _⟩ => ⟨S288x128, .bf16⟩
  | .local _ .vmem, ⟨6, _⟩ => ⟨S1x900x128, .f32⟩
  | .local _ .vmem, ⟨7, _⟩ => ⟨S1x900x128, .f32⟩
  | _, _ => ⟨S4x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x900x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x900x288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S288x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x900x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S3x3x32x64_S288x64 : S3x3x32x64.ShapeCasts S288x64
  concatenates_S288x64_S288x64_S288x128_d1 : Shape.Concatenates [S288x64, S288x64] S288x128 1
  slices_S4x32x32x32_S4x32x30x30_0_0_0_0 : S4x32x32x32.Slices ![0, 0, 0, 0] S4x32x30x30
  slices_S4x32x32x32_S4x32x30x30_0_0_0_1 : S4x32x32x32.Slices ![0, 0, 0, 1] S4x32x30x30
  slices_S4x32x32x32_S4x32x30x30_0_0_0_2 : S4x32x32x32.Slices ![0, 0, 0, 2] S4x32x30x30
  slices_S4x32x32x32_S4x32x30x30_0_0_1_0 : S4x32x32x32.Slices ![0, 0, 1, 0] S4x32x30x30
  slices_S4x32x32x32_S4x32x30x30_0_0_1_1 : S4x32x32x32.Slices ![0, 0, 1, 1] S4x32x30x30
  slices_S4x32x32x32_S4x32x30x30_0_0_1_2 : S4x32x32x32.Slices ![0, 0, 1, 2] S4x32x30x30
  slices_S4x32x32x32_S4x32x30x30_0_0_2_0 : S4x32x32x32.Slices ![0, 0, 2, 0] S4x32x30x30
  slices_S4x32x32x32_S4x32x30x30_0_0_2_1 : S4x32x32x32.Slices ![0, 0, 2, 1] S4x32x30x30
  slices_S4x32x32x32_S4x32x30x30_0_0_2_2 : S4x32x32x32.Slices ![0, 0, 2, 2] S4x32x30x30
  concatenates_S4x32x30x30_S4x32x30x30_S4x32x30x30_S4x32x30x30_S4x32x30x30_S4x32x30x30_S4x32x30x30_S4x32x30x30_S4x32x30x30_S4x288x30x30_d1 : Shape.Concatenates [S4x32x30x30, S4x32x30x30, S4x32x30x30, S4x32x30x30, S4x32x30x30, S4x32x30x30, S4x32x30x30, S4x32x30x30, S4x32x30x30] S4x288x30x30 1
  transposes_S4x288x30x30_S4x30x30x288_0_2_3_1 : S4x288x30x30.Transposes [0, 2, 3, 1] S4x30x30x288
  shapeCasts_S4x30x30x288_S4x900x288 : S4x30x30x288.ShapeCasts S4x900x288
  bcast_S_S4x900x288 : S_.BroadcastsInDim S4x900x288 (![] : Fin 0 → Fin S4x900x288.rank)
  bcast_S4x900x288_S4x1x900x288_0_2_3 : S4x900x288.BroadcastsInDim S4x1x900x288 (![0, 2, 3] : Fin 3 → Fin S4x1x900x288.rank)
  concatenates_S4x1x900x288_S4x1x900x288_S4x2x900x288_d1 : Shape.Concatenates [S4x1x900x288, S4x1x900x288] S4x2x900x288 1
  shapeCasts_S4x2x900x288_S8x900x288 : S4x2x900x288.ShapeCasts S8x900x288
  bitsLt_bf16_f32 : FTy.bits .bf16 < FTy.bits .f32
  inb_S1x900x288_S1x900x288_0_0_0 : ∀ a, (![0, 0, 0] : Fin 3 → Nat) a + S1x900x288.size a ≤ S1x900x288.size a
  h_S1x900x288 : 0 < S1x900x288.numel
  shapeCasts_S1x900x288_S900x288 : S1x900x288.ShapeCasts S900x288
  inb_S288x128_S288x128_0_0 : ∀ a, (![0, 0] : Fin 2 → Nat) a + S288x128.size a ≤ S288x128.size a
  h_S288x128 : 0 < S288x128.numel
  shapeCasts_S288x128_S288x128 : S288x128.ShapeCasts S288x128
  inb_S1x900x128_S1x900x128_0_0_0 : ∀ a, (![0, 0, 0] : Fin 3 → Nat) a + S1x900x128.size a ≤ S1x900x128.size a
  h_S1x900x128 : 0 < S1x900x128.numel
  shapeCasts_S1x900x128_S900x128 : S1x900x128.ShapeCasts S900x128
  shapeCasts_S900x128_S1x900x128 : S900x128.ShapeCasts S1x900x128
  shapeCasts_S8x900x128_S4x2x900x128 : S8x900x128.ShapeCasts S4x2x900x128
  slices_S4x2x900x128_S4x1x900x64_0_0_0_0 : S4x2x900x128.Slices ![0, 0, 0, 0] S4x1x900x64
  shapeCasts_S4x1x900x64_S4x900x64 : S4x1x900x64.ShapeCasts S4x900x64
  slices_S4x2x900x128_S4x1x900x64_0_0_0_64 : S4x2x900x128.Slices ![0, 0, 0, 64] S4x1x900x64
  slices_S4x2x900x128_S4x1x900x64_0_1_0_0 : S4x2x900x128.Slices ![0, 1, 0, 0] S4x1x900x64
  slices_S4x2x900x128_S4x1x900x64_0_1_0_64 : S4x2x900x128.Slices ![0, 1, 0, 64] S4x1x900x64
  bcast_S64_S1x1x64_2 : S64.BroadcastsInDim S1x1x64 (![2] : Fin 1 → Fin S1x1x64.rank)
  bcast_S1x1x64_S4x900x64_0_1_2 : S1x1x64.BroadcastsInDim S4x900x64 (![0, 1, 2] : Fin 3 → Fin S4x900x64.rank)
  shapeCasts_S4x900x64_S4x30x30x64 : S4x900x64.ShapeCasts S4x30x30x64
  transposes_S4x30x30x64_S4x64x30x30_0_3_1_2 : S4x30x30x64.Transposes [0, 3, 1, 2] S4x64x30x30
  dot_S900x288_S288x128_S900x128_1_0_0_1_n_n_wf : DotDims.WF S900x288 S288x128 S900x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x900x288.size a ≤ S8x900x288.size a
  hwx0_0 : ∀ i : grid0.Coords, EltTy.bits .bf16 = 32 ∨ (Rect.block (s := S8x900x288) S1x900x288.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x900x288.size a ≤ S8x900x288.size a
  hwx0_1 : ∀ i : grid0.Coords, EltTy.bits .bf16 = 32 ∨ (Rect.block (s := S8x900x288) S1x900x288.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x128.size a ≤ S288x128.size a
  hwx0_2 : ∀ i : grid0.Coords, EltTy.bits .bf16 = 32 ∨ (Rect.block (s := S288x128) S288x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S288x128.size a ≤ S288x128.size a
  hwx0_3 : ∀ i : grid0.Coords, EltTy.bits .bf16 = 32 ∨ (Rect.block (s := S288x128) S288x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x900x128.size a ≤ S8x900x128.size a
  hwx0_4 : ∀ i : grid0.Coords, EltTy.bits .f32 = 32 ∨ (Rect.block (s := S8x900x128) S1x900x128.size (cc0_transform_4 i) (hinb0_4 i)).WholeWords (EltTy.packing .f32)

variable [Facts₀]

def dot_S900x288_S288x128_S900x128_1_0_0_1_n_n : DotDims S900x288 S288x128 S900x128 where
  lhsContracting := [1]
  rhsContracting := [0]
  lhsNonContracting := [0]
  rhsNonContracting := [1]
  lhsBatch := []
  rhsBatch := []
  wf := dot_S900x288_S288x128_S900x128_1_0_0_1_n_n_wf

abbrev win0_0 : Pipeline.Window sig grid0 :=
  Pipeline.Window.ofSpec (Memref.whole main_v40) S1x900x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1x900x288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S288x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S288x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x900x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32x32x32 : Shape := ⟨4, ![4, 32, 32, 32]⟩
abbrev S3x3x32x64 : Shape := ⟨4, ![3, 3, 32, 64]⟩
abbrev S64 : Shape := ⟨1, ![64]⟩
abbrev S288x64 : Shape := ⟨2, ![288, 64]⟩
abbrev S4x32x30x30 : Shape := ⟨4, ![4, 32, 30, 30]⟩
abbrev S4x288x30x30 : Shape := ⟨4, ![4, 288, 30, 30]⟩
abbrev S_ : Shape := ⟨0, ![]⟩
abbrev S4x288x1x30x30 : Shape := ⟨5, ![4, 288, 1, 30, 30]⟩
abbrev S1x288x64x1x1 : Shape := ⟨5, ![1, 288, 64, 1, 1]⟩
abbrev S4x288x64x30x30 : Shape := ⟨5, ![4, 288, 64, 30, 30]⟩
abbrev S4x64x30x30 : Shape := ⟨4, ![4, 64, 30, 30]⟩
abbrev S4x1x64x30x30 : Shape := ⟨5, ![4, 1, 64, 30, 30]⟩
abbrev S1x64x1x1 : Shape := ⟨4, ![1, 64, 1, 1]⟩

abbrev nBuf : Space → Nat
  | .hbm => 133
  | .vmem => 0
  | .smem => 0
  | _ => 0

abbrev hbmTy0_0 (i : Nat) : BufTy := match i % 128 with
  | 0 => ⟨S4x32x32x32, .f32⟩
  | 1 => ⟨S3x3x32x64, .f32⟩
  | 2 => ⟨S3x3x32x64, .f32⟩
  | 3 => ⟨S64, .f32⟩
  | 4 => ⟨S288x64, .f32⟩
  | 5 => ⟨S288x64, .f32⟩
  | 6 => ⟨S4x32x30x30, .f32⟩
  | 7 => ⟨S4x32x30x30, .f32⟩
  | 8 => ⟨S4x32x30x30, .f32⟩
  | 9 => ⟨S4x32x30x30, .f32⟩
  | 10 => ⟨S4x32x30x30, .f32⟩
  | 11 => ⟨S4x32x30x30, .f32⟩
  | 12 => ⟨S4x32x30x30, .f32⟩
  | 13 => ⟨S4x32x30x30, .f32⟩
  | 14 => ⟨S4x32x30x30, .f32⟩
  | 15 => ⟨S4x288x30x30, .f32⟩
  | 16 => ⟨S_, .f32⟩
  | 17 => ⟨S4x288x30x30, .f32⟩
  | 18 => ⟨S4x288x30x30, .f32⟩
  | 19 => ⟨S4x288x30x30, .f32⟩
  | 20 => ⟨S4x32x32x32, .f32⟩
  | 21 => ⟨S4x32x30x30, .f32⟩
  | 22 => ⟨S4x32x30x30, .f32⟩
  | 23 => ⟨S4x32x30x30, .f32⟩
  | 24 => ⟨S4x32x30x30, .f32⟩
  | 25 => ⟨S4x32x30x30, .f32⟩
  | 26 => ⟨S4x32x30x30, .f32⟩
  | 27 => ⟨S4x32x30x30, .f32⟩
  | 28 => ⟨S4x32x30x30, .f32⟩
  | 29 => ⟨S4x32x30x30, .f32⟩
  | 30 => ⟨S4x288x30x30, .f32⟩
  | 31 => ⟨S_, .f32⟩
  | 32 => ⟨S4x288x30x30, .f32⟩
  | 33 => ⟨S4x288x30x30, .f32⟩
  | 34 => ⟨S4x288x30x30, .f32⟩
  | 35 => ⟨S4x288x1x30x30, .f32⟩
  | 36 => ⟨S1x288x64x1x1, .f32⟩
  | 37 => ⟨S4x288x64x30x30, .f32⟩
  | 38 => ⟨S4x288x64x30x30, .f32⟩
  | 39 => ⟨S4x288x64x30x30, .f32⟩
  | 40 => ⟨S_, .f32⟩
  | 41 => ⟨S4x64x30x30, .f32⟩
  | 42 => ⟨S_, .f32⟩
  | 43 => ⟨S4x64x30x30, .f32⟩
  | 44 => ⟨S4x64x30x30, .f32⟩
  | 45 => ⟨S4x1x64x30x30, .f32⟩
  | 46 => ⟨S4x288x64x30x30, .f32⟩
  | 47 => ⟨S4x288x64x30x30, .f32⟩
  | 48 => ⟨S4x288x64x30x30, .f32⟩
  | 49 => ⟨S_, .f32⟩
  | 50 => ⟨S4x64x30x30, .f32⟩
  | 51 => ⟨S4x1x64x30x30, .f32⟩
  | 52 => ⟨S4x288x64x30x30, .f32⟩
  | 53 => ⟨S4x288x64x30x30, .f32⟩
  | 54 => ⟨S4x288x64x30x30, .f32⟩
  | 55 => ⟨S_, .f32⟩
  | 56 => ⟨S4x64x30x30, .f32⟩
  | 57 => ⟨S4x64x30x30, .f32⟩
  | 58 => ⟨S4x288x1x30x30, .f32⟩
  | 59 => ⟨S1x288x64x1x1, .f32⟩
  | 60 => ⟨S4x288x64x30x30, .f32⟩
  | 61 => ⟨S4x288x64x30x30, .f32⟩
  | 62 => ⟨S4x288x64x30x30, .f32⟩
  | 63 => ⟨S_, .f32⟩
  | 64 => ⟨S4x64x30x30, .f32⟩
  | 65 => ⟨S_, .f32⟩
  | 66 => ⟨S4x64x30x30, .f32⟩
  | 67 => ⟨S4x64x30x30, .f32⟩
  | 68 => ⟨S4x1x64x30x30, .f32⟩
  | 69 => ⟨S4x288x64x30x30, .f32⟩
  | 70 => ⟨S4x288x64x30x30, .f32⟩
  | 71 => ⟨S4x288x64x30x30, .f32⟩
  | 72 => ⟨S_, .f32⟩
  | 73 => ⟨S4x64x30x30, .f32⟩
  | 74 => ⟨S4x1x64x30x30, .f32⟩
  | 75 => ⟨S4x288x64x30x30, .f32⟩
  | 76 => ⟨S4x288x64x30x30, .f32⟩
  | 77 => ⟨S4x288x64x30x30, .f32⟩
  | 78 => ⟨S_, .f32⟩
  | 79 => ⟨S4x64x30x30, .f32⟩
  | 80 => ⟨S4x64x30x30, .f32⟩
  | 81 => ⟨S4x288x1x30x30, .f32⟩
  | 82 => ⟨S1x288x64x1x1, .f32⟩
  | 83 => ⟨S4x288x64x30x30, .f32⟩
  | 84 => ⟨S4x288x64x30x30, .f32⟩
  | 85 => ⟨S4x288x64x30x30, .f32⟩
  | 86 => ⟨S_, .f32⟩
  | 87 => ⟨S4x64x30x30, .f32⟩
  | 88 => ⟨S_, .f32⟩
  | 89 => ⟨S4x64x30x30, .f32⟩
  | 90 => ⟨S4x64x30x30, .f32⟩
  | 91 => ⟨S4x1x64x30x30, .f32⟩
  | 92 => ⟨S4x288x64x30x30, .f32⟩
  | 93 => ⟨S4x288x64x30x30, .f32⟩
  | 94 => ⟨S4x288x64x30x30, .f32⟩
  | 95 => ⟨S_, .f32⟩
  | 96 => ⟨S4x64x30x30, .f32⟩
  | 97 => ⟨S4x1x64x30x30, .f32⟩
  | 98 => ⟨S4x288x64x30x30, .f32⟩
  | 99 => ⟨S4x288x64x30x30, .f32⟩
  | 100 => ⟨S4x288x64x30x30, .f32⟩
  | 101 => ⟨S_, .f32⟩
  | 102 => ⟨S4x64x30x30, .f32⟩
  | 103 => ⟨S4x64x30x30, .f32⟩
  | 104 => ⟨S4x288x1x30x30, .f32⟩
  | 105 => ⟨S1x288x64x1x1, .f32⟩
  | 106 => ⟨S4x288x64x30x30, .f32⟩
  | 107 => ⟨S4x288x64x30x30, .f32⟩
  | 108 => ⟨S4x288x64x30x30, .f32⟩
  | 109 => ⟨S_, .f32⟩
  | 110 => ⟨S4x64x30x30, .f32⟩
  | 111 => ⟨S_, .f32⟩
  | 112 => ⟨S4x64x30x30, .f32⟩
  | 113 => ⟨S4x64x30x30, .f32⟩
  | 114 => ⟨S4x1x64x30x30, .f32⟩
  | 115 => ⟨S4x288x64x30x30, .f32⟩
  | 116 => ⟨S4x288x64x30x30, .f32⟩
  | 117 => ⟨S4x288x64x30x30, .f32⟩
  | 118 => ⟨S_, .f32⟩
  | 119 => ⟨S4x64x30x30, .f32⟩
  | 120 => ⟨S4x1x64x30x30, .f32⟩
  | 121 => ⟨S4x288x64x30x30, .f32⟩
  | 122 => ⟨S4x288x64x30x30, .f32⟩
  | 123 => ⟨S4x288x64x30x30, .f32⟩
  | 124 => ⟨S_, .f32⟩
  | 125 => ⟨S4x64x30x30, .f32⟩
  | 126 => ⟨S4x64x30x30, .f32⟩
  | 127 => ⟨S4x64x30x30, .f32⟩
  | _ => ⟨S4x32x32x32, .f32⟩

abbrev hbmTy0_1 (i : Nat) : BufTy := match i % 128 with
  | 0 => ⟨S4x64x30x30, .f32⟩
  | 1 => ⟨S4x64x30x30, .f32⟩
  | 2 => ⟨S1x64x1x1, .f32⟩
  | 3 => ⟨S4x64x30x30, .f32⟩
  | 4 => ⟨S4x64x30x30, .f32⟩
  | _ => ⟨S4x32x32x32, .f32⟩

abbrev hbmTy (i : Nat) : BufTy := match i / 128 with
  | 0 => hbmTy0_0 i
  | 1 => hbmTy0_1 i
  | _ => ⟨S4x32x32x32, .f32⟩

abbrev bufTy : (tb : Table) → Fin (tcTables nBuf tb) → BufTy
  | .hbm, ⟨i, _⟩ => hbmTy i
  | _, _ => ⟨S4x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_9 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_11 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_cst_12 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_13 : Ref sig .tc := ⟨.hbm, 109, rfl⟩
abbrev main_v91 : Ref sig .tc := ⟨.hbm, 110, rfl⟩
abbrev main_cst_14 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_16 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩

abbrev nD : Nat := 1
abbrev τ : Topo := Topo.v7x

variable {F : FTy → Type} [FloatOps F]

class Facts₀ : Prop where
  shapeCasts_S3x3x32x64_S288x64 : S3x3x32x64.ShapeCasts S288x64
  slices_S4x32x32x32_S4x32x30x30_0_0_0_0 : S4x32x32x32.Slices ![0, 0, 0, 0] S4x32x30x30
  slices_S4x32x32x32_S4x32x30x30_0_0_0_1 : S4x32x32x32.Slices ![0, 0, 0, 1] S4x32x30x30
  slices_S4x32x32x32_S4x32x30x30_0_0_0_2 : S4x32x32x32.Slices ![0, 0, 0, 2] S4x32x30x30
  slices_S4x32x32x32_S4x32x30x30_0_0_1_0 : S4x32x32x32.Slices ![0, 0, 1, 0] S4x32x30x30
  slices_S4x32x32x32_S4x32x30x30_0_0_1_1 : S4x32x32x32.Slices ![0, 0, 1, 1] S4x32x30x30
  slices_S4x32x32x32_S4x32x30x30_0_0_1_2 : S4x32x32x32.Slices ![0, 0, 1, 2] S4x32x30x30
  slices_S4x32x32x32_S4x32x30x30_0_0_2_0 : S4x32x32x32.Slices ![0, 0, 2, 0] S4x32x30x30
  slices_S4x32x32x32_S4x32x30x30_0_0_2_1 : S4x32x32x32.Slices ![0, 0, 2, 1] S4x32x30x30
  slices_S4x32x32x32_S4x32x30x30_0_0_2_2 : S4x32x32x32.Slices ![0, 0, 2, 2] S4x32x30x30
  concatenates_S4x32x30x30_S4x32x30x30_S4x32x30x30_S4x32x30x30_S4x32x30x30_S4x32x30x30_S4x32x30x30_S4x32x30x30_S4x32x30x30_S4x288x30x30_d1 : Shape.Concatenates [S4x32x30x30, S4x32x30x30, S4x32x30x30, S4x32x30x30, S4x32x30x30, S4x32x30x30, S4x32x30x30, S4x32x30x30, S4x32x30x30] S4x288x30x30 1
  bcast_S_S4x288x30x30 : S_.BroadcastsInDim S4x288x30x30 (![] : Fin 0 → Fin S4x288x30x30.rank)
  bcast_S4x288x30x30_S4x288x1x30x30_0_1_3_4 : S4x288x30x30.BroadcastsInDim S4x288x1x30x30 (![0, 1, 3, 4] : Fin 4 → Fin S4x288x1x30x30.rank)
  bcast_S288x64_S1x288x64x1x1_1_2 : S288x64.BroadcastsInDim S1x288x64x1x1 (![1, 2] : Fin 2 → Fin S1x288x64x1x1.rank)
  bcast_S4x288x1x30x30_S4x288x64x30x30_0_1_2_3_4 : S4x288x1x30x30.BroadcastsInDim S4x288x64x30x30 (![0, 1, 2, 3, 4] : Fin 5 → Fin S4x288x64x30x30.rank)
  bcast_S1x288x64x1x1_S4x288x64x30x30_0_1_2_3_4 : S1x288x64x1x1.BroadcastsInDim S4x288x64x30x30 (![0, 1, 2, 3, 4] : Fin 5 → Fin S4x288x64x30x30.rank)
  reducesTo_S4x288x64x30x30_S4x64x30x30_d1 : S4x288x64x30x30.ReducesTo [1] S4x64x30x30
  h_S_ : 0 < S_.numel
  bcast_S_S4x64x30x30 : S_.BroadcastsInDim S4x64x30x30 (![] : Fin 0 → Fin S4x64x30x30.rank)
  bcast_S4x64x30x30_S4x1x64x30x30_0_2_3_4 : S4x64x30x30.BroadcastsInDim S4x1x64x30x30 (![0, 2, 3, 4] : Fin 4 → Fin S4x1x64x30x30.rank)
  bcast_S4x1x64x30x30_S4x288x64x30x30_0_1_2_3_4 : S4x1x64x30x30.BroadcastsInDim S4x288x64x30x30 (![0, 1, 2, 3, 4] : Fin 5 → Fin S4x288x64x30x30.rank)
  bcast_S64_S1x64x1x1_1 : S64.BroadcastsInDim S1x64x1x1 (![1] : Fin 1 → Fin S1x64x1x1.rank)
  bcast_S1x64x1x1_S4x64x30x30_0_1_2_3 : S1x64x1x1.BroadcastsInDim S4x64x30x30 (![0, 1, 2, 3] : Fin 4 → Fin S4x64x30x30.rank)

variable [Facts₀]

class Facts : Prop extends Facts₀ where

variable [Facts]
-- ==== Proof.BitsFrame.lean ====
/-
  The run of the whole program around its one region, read at any float instance.

  Before the region the host builds four arrays from the arguments: the two stacks of patch matrices
  (eight slabs of 900 rows and 288 columns each: the clamped patches, and the clamped patches times their
  logarithms, for the image and for its negation) and the two weight matrices of 288 rows and 128 columns
  (the exponentials of the flattened filters, and the filters times those exponentials).  The region visits
  eight grid points; point t loads slab t of both stacks and both weight matrices whole, and stores one
  900 x 128 block, which is written back as slab t of the region's result.  After the region the host cuts
  that result into four pieces, combines them with the bias and lays the result out.

  What is shown here: every weakly fair execution terminates without a fault; the region's result array ends
  at what the eight stored blocks make of it; every other buffer that is no staging buffer ends at what the
  host lines after the region compute from that; and in particular the four arguments end as they started.
-/
import proofs.«124124_j20409684591420_2_alg».proof.Proof.Gen.Kernel.Launch
import proofs.«124124_j20409684591420_2_alg».proof.Proof.Gen.Kernel.Skeleton
import proofs.«124124_j20409684591420_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The contents of every buffer of core `c` once the host lines before the region have run. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

/-- No host line allocates anything. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's five arrays and buffers the region never sees. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each of them writes its own result buffer only, and none of those is one of the region's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## The arguments are written by no host line -/

section Args
variable (a : Ref sig .tc)

/-- A buffer that is the result of no host line before the region is found by the region as the program started with it. -/
theorem V_of_not_result (c : Dev nD)
    (h : ∀ op ∈ (hostOps0 : List (HloOp τ sig (Elt F))), Proc.devRef .tc a ∉ op.writes) :
    V m c a = m ((c : Thread nD τ).loc a) :=
  StableHlo.after_of_forall_not_mem (b := Proc.devRef .tc a) _ _ (by
    simpa only [List.flatten_cons, List.flatten_nil, List.append_nil] using h)

end Args

/-- The results of the host lines before the region are none of the four arguments. -/
theorem pre_keeps_args : ∀ a ∈ ([main_arg0, main_arg1, main_arg2, main_arg3] : List (Ref sig .tc)),
    ∀ op ∈ (hostOps0 : List (HloOp τ sig (Elt F))), Proc.devRef .tc a ∉ op.writes := by
  intro a ha op hop
  simp only [hostOps0, List.mem_cons, List.mem_nil_iff, or_false] at hop
  simp only [List.mem_cons, List.mem_nil_iff, or_false] at ha
  rcases ha with rfl | rfl | rfl | rfl <;>
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
  simp only [StableHlo.nullary_writes, StableHlo.unary_writes, StableHlo.binary_writes, StableHlo.nary_writes, StableHlo.reshape_writes, Finset.mem_singleton] <;>
  exact StableHlo.devRef_ne_of_ne (by decide)

/-- Nor are the results of the host lines after it. -/
theorem post_keeps_args : ∀ a ∈ ([main_arg0, main_arg1, main_arg2, main_arg3] : List (Ref sig .tc)),
    ∀ op ∈ (hostOps1 : List (HloOp τ sig (Elt F))), Proc.devRef .tc a ∉ op.writes := by
  intro a ha op hop
  simp only [hostOps1, List.mem_cons, List.mem_nil_iff, or_false] at hop
  simp only [List.mem_cons, List.mem_nil_iff, or_false] at ha
  rcases ha with rfl | rfl | rfl | rfl <;>
  rcases hop with rfl | rfl | rfl | rfl | rfl | rfl | rfl | rfl | rfl | rfl | rfl | rfl | rfl | rfl | rfl | rfl | rfl <;>
  simp only [StableHlo.nullary_writes, StableHlo.unary_writes, StableHlo.binary_writes, StableHlo.nary_writes, StableHlo.reshape_writes, Finset.mem_singleton] <;>
  exact StableHlo.devRef_ne_of_ne (by decide)

/-- The four arguments are none of the region's five arrays. -/
theorem args_not_arrays : ∀ a ∈ ([main_arg0, main_arg1, main_arg2, main_arg3] : List (Ref sig .tc)),
    ∀ w, Pipeline.arrRef spec0 w ≠ a := by decide

/-- So each argument is found by the region as the program started with it, -/
theorem V_arg (c : Dev nD) (a : Ref sig .tc) (ha : a ∈ ([main_arg0, main_arg1, main_arg2, main_arg3] : List (Ref sig .tc))) :
    V m c a = m ((c : Thread nD τ).loc a) :=
  V_of_not_result m a c (pre_keeps_args a ha)

/-- and is left so by the lines after the region, whatever the region's arrays have become. -/
theorem tail_arg (dats : (p : Fin _) → (c : Dev nD) → Dat τ (Elt F) Unit ℕ (UR sig nD τ) ℕ (cfgs p) c) (c : Dev nD)
    (a : Ref sig .tc) (ha : a ∈ ([main_arg0, main_arg1, main_arg2, main_arg3] : List (Ref sig .tc))) :
    Pipeline.afterTail₀ cfgs dats 0 (V0 m) [hostOps1] c a = m ((c : Thread nD τ).loc a) := by
  unfold Pipeline.afterTail₀
  rw [StableHlo.after_of_forall_not_mem (b := Proc.devRef .tc a) _ _ (by
      simpa only [List.flatten_cons, List.flatten_nil, List.append_nil] using post_keeps_args a ha),
    Pipeline.withArrays_of_ne _ c (V0 m c) _ a (args_not_arrays a ha)]
  exact V_arg m c a ha

/-! ## A window's block at a grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Inputs
variable {c : Dev nD} (dat : Dat τ (Elt F) Unit ℕ (UR sig nD τ) ℕ cfg0 c)

/-- An input window's staging buffer holds the window's block at every point, whether the block was fetched at that
    point or at an earlier one with the same block index (the two weight matrices are fetched once, at the first point). -/
theorem found0 (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Inputs

/-! ## What the body stores -/

/-- The whole 1 x 900 x 288 slab, the whole 288 x 128 matrix and the whole 1 x 900 x 128 block, as rectangles. -/
abbrev slabRect : Rect S1x900x288 := Rect.unit (s := S1x900x288) ![0, 0, 0] S1x900x288.size inb_S1x900x288_S1x900x288_0_0_0
abbrev weightRect : Rect S288x128 := Rect.unit (s := S288x128) ![0, 0] S288x128.size inb_S288x128_S288x128_0_0
abbrev blockRect : Rect S1x900x128 := Rect.unit (s := S1x900x128) ![0, 0, 0] S1x900x128.size inb_S1x900x128_S1x900x128_0_0_0

/-- The output block after the body: its one store, of the body's arithmetic on the four loaded blocks. -/
def stored (x0 x1 : Vec F S1x900x288 .bf16) (x2 x3 : Vec F S288x128 .bf16) : Vec F S1x900x128 .f32 :=
  View.canon [⟨blockRect, k0_pay1 (View.ld x0 slabRect) (View.ld x1 slabRect) (View.ld x2 weightRect) (View.ld x3 weightRect)⟩]

/-- That one store covers the block. -/
theorem stored_covers (p0 : Vec F S1x900x128 .f32) (y : S1x900x128.Idx) :
    ∃ pc ∈ ([⟨blockRect, p0⟩] : List (View.Piece (Elt F) S1x900x128 .f32)), y ∈ pc.1.set :=
  View.cover_of_tiled [⟨blockRect, p0⟩] S1x900x128.size (by rfl) y

set_option maxHeartbeats 1000000 in
/-- The body, run on whole staging buffers holding `x0 … x3` and an output buffer holding anything, leaves the inputs as
    they were and the output at `stored x0 x1 x2 x3`. -/
theorem body_run (c : Dev nD) (E : Set ℕ) (i : grid0.Coords)
    (arg1 : Memref sig .tc .vmem S1x900x288 .bf16) (harg1 : arg1.IsWhole) (arg2 : Memref sig .tc .vmem S1x900x288 .bf16) (harg2 : arg2.IsWhole)
    (arg3 : Memref sig .tc .vmem S288x128 .bf16) (harg3 : arg3.IsWhole) (arg4 : Memref sig .tc .vmem S288x128 .bf16) (harg4 : arg4.IsWhole)
    (arg5 : Memref sig .tc .vmem S1x900x128 .f32) (harg5 : arg5.IsWhole)
    (x0 x1 : Vec F S1x900x288 .bf16) (x2 x3 : Vec F S288x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The region's proof data -/

/-- On core `c`: the five arrays as the region finds them; after the body at point `t` each input's staging buffer still at
    its block and the output's at what the body stores from the four input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stored (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = stored (iblk m c 0 t) (iblk m c 1 t) (iblk m c 2 t) (iblk m c 3 t) := by dsimp only [dats]

theorem before_0 (c : Dev nD) (t : Fin cfg0.N) (d) : (dats m 0 c).before 0 t d = iblk m c 0 t :=
  found0 m (dats m 0 c) (A_eq m c 0) (after_0 m c) t d
theorem before_1 (c : Dev nD) (t : Fin cfg0.N) (d) : (dats m 0 c).before 1 t d = iblk m c 1 t :=
  found1 m (dats m 0 c) (A_eq m c 1) (after_1 m c) t d
theorem before_2 (c : Dev nD) (t : Fin cfg0.N) (d) : (dats m 0 c).before 2 t d = iblk m c 2 t :=
  found2 m (dats m 0 c) (A_eq m c 2) (after_2 m c) t d
theorem before_3 (c : Dev nD) (t : Fin cfg0.N) (d) : (dats m 0 c).before 3 t d = iblk m c 3 t :=
  found3 m (dats m 0 c) (A_eq m c 3) (after_3 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At every point the input buffers hold their blocks, so the body's run applies; the rest passes through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program from `m` with all counters at zero terminates without a fault; at the end
    each of the region's arrays holds what the eight points' write-backs make of it, and every other buffer that is no
    staging buffer holds what the host lines after the region compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- In particular the four arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (tail_arg m (dats m) c main_arg0 (by simp)),
     ((h c).2 main_arg1 (Pipeline.mem_restRefs_of main_arg1 (by decide) (by decide))).trans (tail_arg m (dats m) c main_arg1 (by simp)),
     ((h c).2 main_arg2 (Pipeline.mem_restRefs_of main_arg2 (by decide) (by decide))).trans (tail_arg m (dats m) c main_arg2 (by simp)),
     ((h c).2 main_arg3 (Pipeline.mem_restRefs_of main_arg3 (by decide) (by decide))).trans (tail_arg m (dats m) c main_arg3 (by simp))⟩)
    (run_main m ρ)

end Cert.Kernel.Fr

end
-- ==== Proof.IdealFrame.lean ====
/-
  The run of the whole program around its one region, read at any float instance.

  Before the region the host builds four arrays from the arguments: the two stacks of patch matrices
  (eight slabs of 900 rows and 288 columns each: the clamped patches, and the clamped patches times their
  logarithms, for the image and for its negation) and the two weight matrices of 288 rows and 128 columns
  (the exponentials of the flattened filters, and the filters times those exponentials).  The region visits
  eight grid points; point t loads slab t of both stacks and both weight matrices whole, and stores one
  900 x 128 block, which is written back as slab t of the region's result.  After the region the host cuts
  that result into four pieces, combines them with the bias and lays the result out.

  What is shown here: every weakly fair execution terminates without a fault; the region's result array ends
  at what the eight stored blocks make of it; every other buffer that is no staging buffer ends at what the
  host lines after the region compute from that; and in particular the four arguments end as they started.
-/
import proofs.«124124_j20409684591420_2_alg».proof.Proof.Gen.KernelIdeal.Launch
import proofs.«124124_j20409684591420_2_alg».proof.Proof.Gen.KernelIdeal.Skeleton
import proofs.«124124_j20409684591420_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The contents of every buffer of core `c` once the host lines before the region have run. -/
abbrev V0 (c : Dev nD) : Valuation τ sig (Elt F) := StableHlo.after (List.flatten [hostOps0]) (fun b => m (c, b))
/-- The same, read at one reference. -/
abbrev V (c : Dev nD) (b : Ref sig .tc) : Buf (Elt F) ((c : Thread nD τ).loc b) := V0 m c (Proc.devRef .tc b)

/-- No host line allocates anything. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's five arrays and buffers the region never sees. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each of them writes its own result buffer only, and none of those is one of the region's five arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.nary_writes, StableHlo.reshape_writes, Finset.mem_singleton] <;> exact StableHlo.devRef_ne_of_ne (by decide)

/-! ## The arguments are written by no host line -/

section Args
variable (a : Ref sig .tc)

/-- A buffer that is the result of no host line before the region is found by the region as the program started with it. -/
theorem V_of_not_result (c : Dev nD)
    (h : ∀ op ∈ (hostOps0 : List (HloOp τ sig (Elt F))), Proc.devRef .tc a ∉ op.writes) :
    V m c a = m ((c : Thread nD τ).loc a) :=
  StableHlo.after_of_forall_not_mem (b := Proc.devRef .tc a) _ _ (by
    simpa only [List.flatten_cons, List.flatten_nil, List.append_nil] using h)

end Args

/-- The results of the host lines before the region are none of the four arguments. -/
theorem pre_keeps_args : ∀ a ∈ ([main_arg0, main_arg1, main_arg2, main_arg3] : List (Ref sig .tc)),
    ∀ op ∈ (hostOps0 : List (HloOp τ sig (Elt F))), Proc.devRef .tc a ∉ op.writes := by
  intro a ha op hop
  simp only [hostOps0, List.mem_cons, List.mem_nil_iff, or_false] at hop
  simp only [List.mem_cons, List.mem_nil_iff, or_false] at ha
  rcases ha with rfl | rfl | rfl | rfl <;>
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
  simp only [StableHlo.nullary_writes, StableHlo.unary_writes, StableHlo.binary_writes, StableHlo.nary_writes, StableHlo.reshape_writes, Finset.mem_singleton] <;>
  exact StableHlo.devRef_ne_of_ne (by decide)

/-- Nor are the results of the host lines after it. -/
theorem post_keeps_args : ∀ a ∈ ([main_arg0, main_arg1, main_arg2, main_arg3] : List (Ref sig .tc)),
    ∀ op ∈ (hostOps1 : List (HloOp τ sig (Elt F))), Proc.devRef .tc a ∉ op.writes := by
  intro a ha op hop
  simp only [hostOps1, List.mem_cons, List.mem_nil_iff, or_false] at hop
  simp only [List.mem_cons, List.mem_nil_iff, or_false] at ha
  rcases ha with rfl | rfl | rfl | rfl <;>
  rcases hop with rfl | rfl | rfl | rfl | rfl | rfl | rfl | rfl | rfl | rfl | rfl | rfl | rfl | rfl | rfl | rfl | rfl <;>
  simp only [StableHlo.nullary_writes, StableHlo.unary_writes, StableHlo.binary_writes, StableHlo.nary_writes, StableHlo.reshape_writes, Finset.mem_singleton] <;>
  exact StableHlo.devRef_ne_of_ne (by decide)

/-- The four arguments are none of the region's five arrays. -/
theorem args_not_arrays : ∀ a ∈ ([main_arg0, main_arg1, main_arg2, main_arg3] : List (Ref sig .tc)),
    ∀ w, Pipeline.arrRef spec0 w ≠ a := by decide

/-- So each argument is found by the region as the program started with it, -/
theorem V_arg (c : Dev nD) (a : Ref sig .tc) (ha : a ∈ ([main_arg0, main_arg1, main_arg2, main_arg3] : List (Ref sig .tc))) :
    V m c a = m ((c : Thread nD τ).loc a) :=
  V_of_not_result m a c (pre_keeps_args a ha)

/-- and is left so by the lines after the region, whatever the region's arrays have become. -/
theorem tail_arg (dats : (p : Fin _) → (c : Dev nD) → Dat τ (Elt F) Unit ℕ (UR sig nD τ) ℕ (cfgs p) c) (c : Dev nD)
    (a : Ref sig .tc) (ha : a ∈ ([main_arg0, main_arg1, main_arg2, main_arg3] : List (Ref sig .tc))) :
    Pipeline.afterTail₀ cfgs dats 0 (V0 m) [hostOps1] c a = m ((c : Thread nD τ).loc a) := by
  unfold Pipeline.afterTail₀
  rw [StableHlo.after_of_forall_not_mem (b := Proc.devRef .tc a) _ _ (by
      simpa only [List.flatten_cons, List.flatten_nil, List.append_nil] using post_keeps_args a ha),
    Pipeline.withArrays_of_ne _ c (V0 m c) _ a (args_not_arrays a ha)]
  exact V_arg m c a ha

/-! ## A window's block at a grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section Inputs
variable {c : Dev nD} (dat : Dat τ (Elt F) Unit ℕ (UR sig nD τ) ℕ cfg0 c)

/-- An input window's staging buffer holds the window's block at every point, whether the block was fetched at that
    point or at an earlier one with the same block index (the two weight matrices are fetched once, at the first point). -/
theorem found0 (hA : dat.A 0 = V m c (Pipeline.arrRef spec0 0)) (hafter : ∀ t, dat.after 0 t = iblk m c 0 t) (t : Fin cfg0.N) (d) :
    dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found1 (hA : dat.A 1 = V m c (Pipeline.arrRef spec0 1)) (hafter : ∀ t, dat.after 1 t = iblk m c 1 t) (t : Fin cfg0.N) (d) :
    dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found2 (hA : dat.A 2 = V m c (Pipeline.arrRef spec0 2)) (hafter : ∀ t, dat.after 2 t = iblk m c 2 t) (t : Fin cfg0.N) (d) :
    dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found3 (hA : dat.A 3 = V m c (Pipeline.arrRef spec0 3)) (hafter : ∀ t, dat.after 3 t = iblk m c 3 t) (t : Fin cfg0.N) (d) :
    dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

end Inputs

/-! ## What the body stores -/

/-- The whole 1 x 900 x 288 slab, the whole 288 x 128 matrix and the whole 1 x 900 x 128 block, as rectangles. -/
abbrev slabRect : Rect S1x900x288 := Rect.unit (s := S1x900x288) ![0, 0, 0] S1x900x288.size inb_S1x900x288_S1x900x288_0_0_0
abbrev weightRect : Rect S288x128 := Rect.unit (s := S288x128) ![0, 0] S288x128.size inb_S288x128_S288x128_0_0
abbrev blockRect : Rect S1x900x128 := Rect.unit (s := S1x900x128) ![0, 0, 0] S1x900x128.size inb_S1x900x128_S1x900x128_0_0_0

/-- The output block after the body: its one store, of the body's arithmetic on the four loaded blocks. -/
def stored (x0 x1 : Vec F S1x900x288 .bf16) (x2 x3 : Vec F S288x128 .bf16) : Vec F S1x900x128 .f32 :=
  View.canon [⟨blockRect, k0_pay1 (View.ld x0 slabRect) (View.ld x1 slabRect) (View.ld x2 weightRect) (View.ld x3 weightRect)⟩]

/-- That one store covers the block. -/
theorem stored_covers (p0 : Vec F S1x900x128 .f32) (y : S1x900x128.Idx) :
    ∃ pc ∈ ([⟨blockRect, p0⟩] : List (View.Piece (Elt F) S1x900x128 .f32)), y ∈ pc.1.set :=
  View.cover_of_tiled [⟨blockRect, p0⟩] S1x900x128.size (by rfl) y

set_option maxHeartbeats 1000000 in
/-- The body, run on whole staging buffers holding `x0 … x3` and an output buffer holding anything, leaves the inputs as
    they were and the output at `stored x0 x1 x2 x3`. -/
theorem body_run (c : Dev nD) (E : Set ℕ) (i : grid0.Coords)
    (arg1 : Memref sig .tc .vmem S1x900x288 .bf16) (harg1 : arg1.IsWhole) (arg2 : Memref sig .tc .vmem S1x900x288 .bf16) (harg2 : arg2.IsWhole)
    (arg3 : Memref sig .tc .vmem S288x128 .bf16) (harg3 : arg3.IsWhole) (arg4 : Memref sig .tc .vmem S288x128 .bf16) (harg4 : arg4.IsWhole)
    (arg5 : Memref sig .tc .vmem S1x900x128 .f32) (harg5 : arg5.IsWhole)
    (x0 x1 : Vec F S1x900x288 .bf16) (x2 x3 : Vec F S288x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E (cc0__branch_kernel i arg1 harg1 arg2 harg2 arg3 harg3 arg4 harg4 arg5 harg5) K := by
  simp only [cc0__branch_kernel_eq_skeleton]; unfold cc0__branch_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The region's proof data -/

/-- On core `c`: the five arrays as the region finds them; after the body at point `t` each input's staging buffer still at
    its block and the output's at what the body stores from the four input blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => stored (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = stored (iblk m c 0 t) (iblk m c 1 t) (iblk m c 2 t) (iblk m c 3 t) := by dsimp only [dats]

theorem before_0 (c : Dev nD) (t : Fin cfg0.N) (d) : (dats m 0 c).before 0 t d = iblk m c 0 t :=
  found0 m (dats m 0 c) (A_eq m c 0) (after_0 m c) t d
theorem before_1 (c : Dev nD) (t : Fin cfg0.N) (d) : (dats m 0 c).before 1 t d = iblk m c 1 t :=
  found1 m (dats m 0 c) (A_eq m c 1) (after_1 m c) t d
theorem before_2 (c : Dev nD) (t : Fin cfg0.N) (d) : (dats m 0 c).before 2 t d = iblk m c 2 t :=
  found2 m (dats m 0 c) (A_eq m c 2) (after_2 m c) t d
theorem before_3 (c : Dev nD) (t : Fin cfg0.N) (d) : (dats m 0 c).before 3 t d = iblk m c 3 t :=
  found3 m (dats m 0 c) (A_eq m c 3) (after_3 m c) t d

/-! ## The body at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At every point the input buffers hold their blocks, so the body's run applies; the rest passes through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program from `m` with all counters at zero terminates without a fault; at the end
    each of the region's arrays holds what the eight points' write-backs make of it, and every other buffer that is no
    staging buffer holds what the host lines after the region compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- In particular the four arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (tail_arg m (dats m) c main_arg0 (by simp)),
     ((h c).2 main_arg1 (Pipeline.mem_restRefs_of main_arg1 (by decide) (by decide))).trans (tail_arg m (dats m) c main_arg1 (by simp)),
     ((h c).2 main_arg2 (Pipeline.mem_restRefs_of main_arg2 (by decide) (by decide))).trans (tail_arg m (dats m) c main_arg2 (by simp)),
     ((h c).2 main_arg3 (Pipeline.mem_restRefs_of main_arg3 (by decide) (by decide))).trans (tail_arg m (dats m) c main_arg3 (by simp))⟩)
    (run_main m ρ)

end Cert.KernelIdeal.Fr

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.BlockValue.lean ====
/-
  The region's result array after the run, as one function of the four arrays the region reads.

  Write A1, A2 for the two stacks of eight 900 x 288 slabs and G1, G2 for the two 288 x 128 weight matrices.  At grid
  point t the body forms the three 900 x 128 products  A1[t]·G1,  A2[t]·G1  and  A1[t]·G2  and stores
  exp ((A2[t]·G1 + A1[t]·G2) / (A1[t]·G1)), entry by entry; the block is written back as slab t of the result.  The eight
  slabs tile the result, so the result at (n, r, q) is
      exp ((Σ_p A2[n,r,p] G1[p,q] + Σ_p A1[n,r,p] G2[p,q]) / Σ_p A1[n,r,p] G1[p,q]).
-/
import proofs.«124124_j20409684591420_2_alg».proof.Proof.IdealFrame
import proofs.«124124_j20409684591420_2_alg».proof.Proof.LibPlainDot
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr

/-- The result of the region as a function of the two slab stacks and the two weight matrices. -/
def regionOut (A1 A2 : S8x900x288.Idx → EReal) (G1 G2 : S288x128.Idx → EReal) : S8x900x128.Idx → EReal := fun i =>
  Ideal.exp (Ideal.div
    ((∑ p : Fin 288, A2 (ix3 (i 0) (i 1) p) * G1 (ix2 p (i 2))) + ∑ p : Fin 288, A1 (ix3 (i 0) (i 1) p) * G2 (ix2 p (i 2)))
    (∑ p : Fin 288, A1 (ix3 (i 0) (i 1) p) * G1 (ix2 p (i 2))))

/-! ## The body's arithmetic at one entry -/

/-- Dropping the leading unit axis of a slab: row r, column p of the matrix is entry (0, r, p) of the slab. -/
theorem slab_row (x : Vec Ideal S1x900x288 .bf16) (h : S1x900x288.ShapeCasts S900x288) (r : Fin 900) (p : Fin 288) :
    shapeCast S900x288 x h (ix2 r p) = x (ix3 (0 : Fin 1) r p) := by
  refine (shapeCast_dropUnit_apply ![900, 288] x h (ix2 r p)).trans (congrArg x ?_)
  funext a; match a with | ⟨0, _⟩ => rfl | ⟨1, _⟩ => rfl | ⟨2, _⟩ => rfl

/-- Adding a leading unit axis to a 900 x 128 matrix: entry (0, r, q) of the block is row r, column q of the matrix. -/
theorem block_entry (v : FVec Ideal S900x128 .f32) (h : S900x128.ShapeCasts S1x900x128) (r : Fin 900) (q : Fin 128) :
    shapeCast S1x900x128 v h (ix3 (0 : Fin 1) r q) = v (ix2 r q) := by
  refine (shapeCast_addUnit_apply ![900, 128] v h (ix3 (0 : Fin 1) r q)).trans (congrArg v ?_)
  funext a; match a with | ⟨0, _⟩ => rfl | ⟨1, _⟩ => rfl

/-- One product of a slab's matrix with a weight matrix, from the zero splat, at (r, q): the sum over the 288 rows. -/
theorem product_at (xa : Vec Ideal S1x900x288 .bf16) (xb : Vec Ideal S288x128 .bf16)
    (h1 : S1x900x288.ShapeCasts S900x288) (h2 : S288x128.ShapeCasts S288x128) (r : Fin 900) (q : Fin 128) :
    (matmul (F := Ideal) (φ₁ := .bf16) (φ₂ := .bf16) dot_S900x288_S288x128_S900x128_1_0_0_1_n_n none
        (shapeCast S900x288 xa h1 : FVec Ideal S900x288 .bf16) (shapeCast S288x128 xb h2 : FVec Ideal S288x128 .bf16)
        (constant S900x128 .f32 0x00000000#32) (ix2 r q) : EReal)
      = ∑ p : Fin 288, (xa (ix3 (0 : Fin 1) r p) : EReal) * (xb (ix2 p q) : EReal) := by
  refine (Cert.LibPlainDot.matmul_zero_apply 900 288 128 (φ₁ := .bf16) (φ₂ := .bf16) none
    (shapeCast S900x288 xa h1 : FVec Ideal S900x288 .bf16) (shapeCast S288x128 xb h2 : FVec Ideal S288x128 .bf16) (ix2 r q)).trans ?_
  refine Finset.sum_congr rfl fun p _ => ?_
  rw [shapeCast_self xb h2]
  exact congrArg (· * xb (ix2 p q)) (slab_row xa h1 r p)

/-- The stored block at entry (0, r, q), from the four loaded blocks. -/
theorem pay_at (x0 x1 : Vec Ideal S1x900x288 .bf16) (x2 x3 : Vec Ideal S288x128 .bf16) (r : Fin 900) (q : Fin 128) :
    k0_pay1 (F := Ideal) x0 x1 x2 x3 (ix3 (0 : Fin 1) r q)
      = Ideal.exp (Ideal.div
          ((∑ p : Fin 288, x1 (ix3 (0 : Fin 1) r p) * x2 (ix2 p q)) + ∑ p : Fin 288, x0 (ix3 (0 : Fin 1) r p) * x3 (ix2 p q))
          (∑ p : Fin 288, x0 (ix3 (0 : Fin 1) r p) * x2 (ix2 p q))) := by
  unfold k0_pay1
  refine (block_entry _ _ r q).trans ?_
  refine congrArg Ideal.exp ?_
  refine congrArg₂ Ideal.div (congrArg₂ (· + ·) ?_ ?_) ?_
  · exact product_at x1 x2 _ _ r q
  · exact product_at x0 x3 _ _ r q
  · exact product_at x0 x2 _ _ r q

/-! ## From the eight blocks to the array -/

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices over the grid: slab windows and the result window sit at slab t; the weight windows never move. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Grid point t as a slab number. -/
def slab (t : Fin cfg0.N) : Fin 8 := ⟨t.val, by have h : t.val < grid0.N := t.isLt; have := N_0; omega⟩

set_option maxHeartbeats 2000000 in
/-- What point t writes back is block t of `regionOut` of the four arrays as the region finds them. -/
theorem flushed_eq (c : Dev nD) (t : Fin cfg0.N) :
    (dats m 0 c).flushed 4 t = ((cfg0.win 4).blk t).view.read (Elt Ideal)
      (regionOut (V m c main_v40) (V m c main_v45) (V m c main_v48) (V m c main_v49)) := by
  show (cfg0.win 4).cut (grid0.coords t) ((dats m 0 c).after 4 t) = _
  rw [after_4]
  unfold stored
  rw [View.canon_unit_zero zeros3]
  simp only [View.ld_unit_zero (S := S1x900x288) zeros3, View.ld_unit_zero (S := S288x128) zeros2]
  obtain ⟨a0, a1, a2, b0, b1, b2, c0, c1, d0, d1, e0, e1, e2⟩ := index_facts t
  funext j
  obtain ⟨u, r, q, rfl⟩ : ∃ (u : Fin 1) (r : Fin 900) (q : Fin 128), j = ix3 u r q := ⟨j 0, j 1, j 2, eq_ix3 j⟩
  obtain rfl : u = 0 := Subsingleton.elim _ _
  refine (pay_at (iblk m c 0 t) (iblk m c 1 t) (iblk m c 2 t) (iblk m c 3 t) r q).trans ?_
  have hA (p : Fin 288) : ((cfg0.win 0).blk t).view.emb (ix3 (0 : Fin 1) r p) = (ix3 (slab t) r p : S8x900x288.Idx) := by
    funext a; apply Fin.ext
    match a with
    | ⟨0, _⟩ => show win0_0.index t (0 : Fin 3) * 1 + 1 * 0 = t.val; omega
    | ⟨1, _⟩ => show win0_0.index t (1 : Fin 3) * 900 + 1 * r.val = r.val; omega
    | ⟨2, _⟩ => show win0_0.index t (2 : Fin 3) * 288 + 1 * p.val = p.val; omega
  have hB (p : Fin 288) : ((cfg0.win 1).blk t).view.emb (ix3 (0 : Fin 1) r p) = (ix3 (slab t) r p : S8x900x288.Idx) := by
    funext a; apply Fin.ext
    match a with
    | ⟨0, _⟩ => show win0_1.index t (0 : Fin 3) * 1 + 1 * 0 = t.val; omega
    | ⟨1, _⟩ => show win0_1.index t (1 : Fin 3) * 900 + 1 * r.val = r.val; omega
    | ⟨2, _⟩ => show win0_1.index t (2 : Fin 3) * 288 + 1 * p.val = p.val; omega
  have hC (p : Fin 288) : ((cfg0.win 2).blk t).view.emb (ix2 p q) = (ix2 p q : S288x128.Idx) := by
    funext a; apply Fin.ext
    match a with
    | ⟨0, _⟩ => show win0_2.index t (0 : Fin 2) * 288 + 1 * p.val = p.val; omega
    | ⟨1, _⟩ => show win0_2.index t (1 : Fin 2) * 128 + 1 * q.val = q.val; omega
  have hD (p : Fin 288) : ((cfg0.win 3).blk t).view.emb (ix2 p q) = (ix2 p q : S288x128.Idx) := by
    funext a; apply Fin.ext
    match a with
    | ⟨0, _⟩ => show win0_3.index t (0 : Fin 2) * 288 + 1 * p.val = p.val; omega
    | ⟨1, _⟩ => show win0_3.index t (1 : Fin 2) * 128 + 1 * q.val = q.val; omega
  have hE : ((cfg0.win 4).blk t).view.emb (ix3 (0 : Fin 1) r q) = (ix3 (slab t) r q : S8x900x128.Idx) := by
    funext a; apply Fin.ext
    match a with
    | ⟨0, _⟩ => show win0_4.index t (0 : Fin 3) * 1 + 1 * 0 = t.val; omega
    | ⟨1, _⟩ => show win0_4.index t (1 : Fin 3) * 900 + 1 * r.val = r.val; omega
    | ⟨2, _⟩ => show win0_4.index t (2 : Fin 3) * 128 + 1 * q.val = q.val; omega
  have i0 (p : Fin 288) : iblk m c 0 t (ix3 (0 : Fin 1) r p) = V m c main_v40 (ix3 (slab t) r p) := congrArg (V m c main_v40) (hA p)
  have i1 (p : Fin 288) : iblk m c 1 t (ix3 (0 : Fin 1) r p) = V m c main_v45 (ix3 (slab t) r p) := congrArg (V m c main_v45) (hB p)
  have i2 (p : Fin 288) : iblk m c 2 t (ix2 p q) = V m c main_v48 (ix2 p q) := congrArg (V m c main_v48) (hC p)
  have i3 (p : Fin 288) : iblk m c 3 t (ix2 p q) = V m c main_v49 (ix2 p q) := congrArg (V m c main_v49) (hD p)
  have e : ((cfg0.win 4).blk t).view.read (Elt Ideal) (regionOut (V m c main_v40) (V m c main_v45) (V m c main_v48) (V m c main_v49)) (ix3 (0 : Fin 1) r q)
      = regionOut (V m c main_v40) (V m c main_v45) (V m c main_v48) (V m c main_v49) (ix3 (slab t) r q) :=
    congrArg (regionOut (V m c main_v40) (V m c main_v45) (V m c main_v48) (V m c main_v49)) hE
  refine Eq.trans ?_ e.symm
  unfold regionOut
  refine congrArg Ideal.exp (congrArg₂ Ideal.div (congrArg₂ (· + ·) (Finset.sum_congr rfl fun p _ => ?_) (Finset.sum_congr rfl fun p _ => ?_))
    (Finset.sum_congr rfl fun p _ => ?_))
  · exact congrArg₂ (· * ·) (i1 p) (i2 p)
  · exact congrArg₂ (· * ·) (i0 p) (i3 p)
  · exact congrArg₂ (· * ·) (i0 p) (i2 p)

/-- An index of the result lies in point t's block iff each coordinate lies in the block's range on its axis. -/
theorem mem_block (t : Fin cfg0.N) (i : S8x900x128.Idx) :
    i ∈ ((cfg0.win 4).blk t).view.set ↔ ∀ a : Fin 3, win0_4.index t a * S1x900x128.size a ≤ (i a).val ∧ (i a).val < win0_4.index t a * S1x900x128.size a + S1x900x128.size a := by
  show i ∈ ((View.whole main_v50).slice (win0_4.rect t)).set ↔ _
  rw [View.set_slice_whole, Rect.mem_set_unit]
  exact Iff.rfl

/-- Every index of the result lies in the block of the point its slab number names. -/
theorem covered (i : S8x900x128.Idx) : ∃ t : Fin cfg0.N, (cfg0.win 4).flush t = true ∧ i ∈ ((cfg0.win 4).blk t).view.set := by
  have h0 : (i 0).val < 8 := (i 0).isLt
  have h1 : (i 1).val < 900 := (i 1).isLt
  have h2 : (i 2).val < 128 := (i 2).isLt
  let t : Fin cfg0.N := ⟨(i 0).val, by have := N_0; show (i 0).val < grid0.N; omega⟩
  obtain ⟨a0, a1, a2, b0, b1, b2, c0, c1, d0, d1, e0, e1, e2⟩ := index_facts t
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; have : t.val = (i 0).val := rfl; omega
  | ⟨1, _⟩ => show win0_4.index t (1 : Fin 3) * 900 ≤ (i 1).val ∧ (i 1).val < win0_4.index t (1 : Fin 3) * 900 + 900; omega
  | ⟨2, _⟩ => show win0_4.index t (2 : Fin 3) * 128 ≤ (i 2).val ∧ (i 2).val < win0_4.index t (2 : Fin 3) * 128 + 128; omega

/-- The region's result array after the run. -/
theorem final (c : Dev nD) : (dats m 0 c).arrAt 4 cfg0.N
    = regionOut (V m c main_v40) (V m c main_v45) (V m c main_v48) (V m c main_v49) :=
  (dats m 0 c).arrAt_eq_of_cover 4 _ (fun t _ => flushed_eq m c t) covered

end Cert.KernelIdeal.Val

end
-- ==== Proof.LibNary9.lean ====
/-
  A host operation over a literal family of NINE operand buffers, read at its result buffer.

  The operation's function takes the family of its operands' contents.  Read at its own result, with the family given as
  a literal of nine references, the result is that function applied to the nine contents one by one — each operand's
  contents at its own literal reference rather than at "the k-th reference of the family" under a binder — so that a
  chain of such readings can go on through the operands.  (The nine-operand companion of the four-operand reading the
  library has; a nine-way concatenation is the instance met here.)
-/
import Idealize.ShloMosaic.Lib.StableHlo.Run

namespace Cert.LibNary9

open Idealize.ShloMosaic Idealize.ShloMosaic.StableHlo

variable {τ : Topo} {sig : RefSig} {Val : EltTy → Type}
variable {x0 x1 x2 x3 x4 x5 x6 x7 x8 y : Ref sig .tc}

/-- The result of a nine-operand operation at its result buffer: its function of the nine operands' contents. -/
theorem nary9_result
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [nary_result]; congr 1; funext k; fin_cases k <;> rfl

/-- The same, in the form a rewriting pass keyed on the operation (not on the reference) can use. -/
theorem nary9_result'
    (f : ((k : Fin 9) → ((![x0, x1, x2, x3, x4, x5, x6, x7, x8] : Fin 9 → Ref sig .tc) k).ty.Contents Val) → y.ty.Contents Val) (hxs hy)
    (F : Valuation τ sig Val) :
    (nary (τ := τ) ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) :=
  nary9_result f hxs hy F

end Cert.LibNary9
-- ==== Proof.Spec.lean ====
/-
  What the two programs compute, written once over the argument arrays, index by index.

  The image x has 4 samples of 32 channels of 32 x 32 pixels; each of the two filter banks k1, k2 has 3 x 3 window
  offsets, 32 input channels and 64 output channels; the bias has 64 entries.  At an output position (h, w) of the
  30 x 30 grid the 288 patch entries are the pixels x[b, c, h + i, w + j], numbered p = (3 i + j) 32 + c.

  For a sample b, a sign (the image or its negation), a filter bank k and an output channel o put
      a_p = max (± patch entry p, 0.1)      and      z_p = log a_p + k[p, o].
  One program forms  exp (Σ_p z_p · softmax(z)_p),  the softmax taken with the maximum of z subtracted first;
  the other forms    exp ((Σ_p (log a_p · a_p) e^{k_p} + Σ_p a_p (k_p e^{k_p})) / Σ_p a_p e^{k_p}).
  Both then combine the four (sign, bank) branches as  y₊₁ − y₊₂ − y₋₁ + y₋₂ + bias[o].
-/
import Idealize.ShloMosaic.PureOps.Ideal
import Idealize.ShloMosaic.Lib.ValueIdx

noncomputable section

open scoped BigOperators

namespace Cert.Spec

open Idealize.ShloMosaic Idealize.ShloMosaic.ValueIdx

/-- The index sets of the image, of a filter bank, of the bias and of the result. -/
abbrev XIdx := (⟨4, ![4, 32, 32, 32]⟩ : Shape).Idx
abbrev KIdx := (⟨4, ![3, 3, 32, 64]⟩ : Shape).Idx
abbrev BIdx := (⟨1, ![64]⟩ : Shape).Idx
abbrev OIdx := (⟨4, ![4, 64, 30, 30]⟩ : Shape).Idx

/-- The clamp level: the single-precision number nearest to one tenth. -/
def level : EReal := Ideal.ofBits .f32 0x3DCCCCCD#32

/-- Patch row p = (3 i + j) 32 + c names the window offset (i, j) and the channel c. -/
def rowI (p : Fin 288) : Fin 3 := ⟨p.val / 96, by have := p.isLt; omega⟩
def rowJ (p : Fin 288) : Fin 3 := ⟨p.val / 32 % 3, by omega⟩
def rowC (p : Fin 288) : Fin 32 := ⟨p.val % 32, by omega⟩

/-- The pixel that patch row p reads at output position (h, w) of sample b. -/
def pixel (b : Fin 4) (h w : Fin 30) (p : Fin 288) : XIdx :=
  ix4 b (rowC p) ⟨h.val + (rowI p).val, by have := h.isLt; have := (rowI p).isLt; omega⟩
    ⟨w.val + (rowJ p).val, by have := w.isLt; have := (rowJ p).isLt; omega⟩

/-- a_p: the patch entry of the image (`s = false`) or of its negation (`s = true`), clamped below at the level. -/
def clamped (x : XIdx → EReal) (s : Bool) (b : Fin 4) (h w : Fin 30) (p : Fin 288) : EReal :=
  max (if s then -(x (pixel b h w p)) else x (pixel b h w p)) level

/-- k[p, o]: the filter bank flattened to 288 rows. -/
def weight (k : KIdx → EReal) (o : Fin 64) (p : Fin 288) : EReal := k (ix4 (rowI p) (rowJ p) (rowC p) o)

/-- The largest score, as a fold from −∞ followed by one more maximum against −∞. -/
def top (z : Fin 288 → EReal) : EReal := max ⊥ ((Finset.univ : Finset (Fin 288)).fold max ⊥ z)

/-- exp of the softmax-weighted mean of the scores z, the softmax taken after subtracting the largest score. -/
def softBranch (z : Fin 288 → EReal) : EReal :=
  Ideal.exp (∑ p, z p * Ideal.div (Ideal.exp (z p - top z)) (∑ q, Ideal.exp (z q - top z)))

/-- exp of the ratio of two plain sums over the patch rows. -/
def ratioBranch (a k : Fin 288 → EReal) : EReal :=
  Ideal.exp (Ideal.div ((∑ p, (Ideal.log (a p) * a p) * Ideal.exp (k p)) + ∑ p, a p * (k p * Ideal.exp (k p)))
    (∑ p, a p * Ideal.exp (k p)))

/-- The scores of one branch. -/
def score (x : XIdx → EReal) (k : KIdx → EReal) (s : Bool) (b : Fin 4) (o : Fin 64) (h w : Fin 30) (p : Fin 288) : EReal :=
  Ideal.log (clamped x s b h w p) + weight k o p

/-- The result with every branch in the softmax form. -/
def refOut (x : XIdx → EReal) (k1 k2 : KIdx → EReal) (bias : BIdx → EReal) (b : Fin 4) (o : Fin 64) (h w : Fin 30) : EReal :=
  softBranch (score x k1 false b o h w) - softBranch (score x k2 false b o h w) - softBranch (score x k1 true b o h w)
    + softBranch (score x k2 true b o h w) + bias (ix1 o)

/-- The result with every branch in the ratio form. -/
def kerOut (x : XIdx → EReal) (k1 k2 : KIdx → EReal) (bias : BIdx → EReal) (b : Fin 4) (o : Fin 64) (h w : Fin 30) : EReal :=
  ratioBranch (clamped x false b h w) (weight k1 o) - ratioBranch (clamped x false b h w) (weight k2 o)
    - ratioBranch (clamped x true b h w) (weight k1 o) + ratioBranch (clamped x true b h w) (weight k2 o) + bias (ix1 o)

end Cert.Spec

end
-- ==== Proof.LibPatches.lean ====
/-
  The nine shifted 30 x 30 windows of a 32 x 32 image, joined along the channel axis, read at an index.

  For an image x with 4 samples, 32 channels and 32 x 32 pixels, window (i, j) (i, j in 0, 1, 2) is the slice
  x[:, :, i : i + 30, j : j + 30].  Laying the nine windows end to end along the channel axis, in the order
  (0,0), (0,1), (0,2), (1,0), ..., (2,2), gives an array with 288 rows per sample: row p = (3 i + j) 32 + c is
  channel c of window (i, j), so its entry at position (h, w) is the pixel x[b, c, h + i, w + j].  The element type
  plays no part.
-/
import Idealize.ShloMosaic.Lib.Pipeline.Value
import Idealize.ShloMosaic.Lib.ValueIdx
import proofs.«124124_j20409684591420_2_alg».proof.Proof.Spec

namespace Cert.LibPatches

open Idealize.ShloMosaic Idealize.ShloMosaic.ValueIdx

/-- The shape of the image and of one window. -/
abbrev S32 : Shape := ⟨4, ![4, 32, 32, 32]⟩
abbrev S30 : Shape := ⟨4, ![4, 32, 30, 30]⟩
/-- The shape of the nine windows joined along the channel axis. -/
abbrev S288 : Shape := ⟨4, ![4, 288, 30, 30]⟩

/-- One window read at channel p mod 32: when p lies in the span of window (i, j), that is p / 32 = 3 i + j, the entry
    is the pixel that patch row p names. -/
theorem window_apply {α : Type} (x : Cert.Spec.XIdx → α) (i j : Nat) (hj : j < 3)
    (hs : S32.Slices ![0, 0, i, j] S30) (b : Fin 4) (p : Fin 288) (h w : Fin 30) (hp : p.val / 32 = 3 * i + j) :
    extractStridedSlice S30 ![0, 0, i, j] x hs (ix4 b (⟨p.val % 32, Nat.mod_lt _ (by decide)⟩ : Fin 32) h w)
      = x (Cert.Spec.pixel b h w p) := by
  have hpl := p.isLt
  refine extractStridedSlice_apply ![0, 0, i, j] x hs _ (Cert.Spec.pixel b h w p) (fun a => ?_)
  match a with
  | ⟨0, _⟩ => show b.val = 0 + b.val; omega
  | ⟨1, _⟩ => show p.val % 32 = 0 + p.val % 32; omega
  | ⟨2, _⟩ => show h.val + p.val / 96 = i + h.val; omega
  | ⟨3, _⟩ => show w.val + p.val / 32 % 3 = j + w.val; omega

/-- **The joined windows at an index**: row p of the 288 at position (h, w) of sample b is the pixel
    x[b, p mod 32, h + p / 96, w + (p / 32) mod 3]. -/
theorem patches_apply {α : Type} (x : Cert.Spec.XIdx → α)
    (h00 : S32.Slices ![0, 0, 0, 0] S30)
    (h01 : S32.Slices ![0, 0, 0, 1] S30)
    (h02 : S32.Slices ![0, 0, 0, 2] S30)
    (h10 : S32.Slices ![0, 0, 1, 0] S30)
    (h11 : S32.Slices ![0, 0, 1, 1] S30)
    (h12 : S32.Slices ![0, 0, 1, 2] S30)
    (h20 : S32.Slices ![0, 0, 2, 0] S30)
    (h21 : S32.Slices ![0, 0, 2, 1] S30)
    (h22 : S32.Slices ![0, 0, 2, 2] S30)
    (hc : Shape.Concatenates [S30, S30, S30, S30, S30, S30, S30, S30, S30] S288 1)
    (b : Fin 4) (p : Fin 288) (h w : Fin 30) :
    concatenate S288 1
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩] hc (ix4 b p h w) = x (Cert.Spec.pixel b h w p) := by
  have hpl := p.isLt
  have hcases : p.val / 32 = 0 ∨ p.val / 32 = 1 ∨ p.val / 32 = 2 ∨ p.val / 32 = 3 ∨ p.val / 32 = 4 ∨ p.val / 32 = 5 ∨ p.val / 32 = 6 ∨ p.val / 32 = 7 ∨ p.val / 32 = 8 := by omega
  rcases hcases with hk | hk | hk | hk | hk | hk | hk | hk | hk
  · rw [← window_apply x 0 0 (by decide) h00 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 0 (by show (0 : Nat) < 9; decide) S30 _ rfl rfl 0 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 0 + p.val % 32 = p.val; omega
  · rw [← window_apply x 0 1 (by decide) h01 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 1 (by show (1 : Nat) < 9; decide) S30 _ rfl rfl 32 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 32 + p.val % 32 = p.val; omega
  · rw [← window_apply x 0 2 (by decide) h02 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 2 (by show (2 : Nat) < 9; decide) S30 _ rfl rfl 64 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 64 + p.val % 32 = p.val; omega
  · rw [← window_apply x 1 0 (by decide) h10 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 3 (by show (3 : Nat) < 9; decide) S30 _ rfl rfl 96 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 96 + p.val % 32 = p.val; omega
  · rw [← window_apply x 1 1 (by decide) h11 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 4 (by show (4 : Nat) < 9; decide) S30 _ rfl rfl 128 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 128 + p.val % 32 = p.val; omega
  · rw [← window_apply x 1 2 (by decide) h12 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 5 (by show (5 : Nat) < 9; decide) S30 _ rfl rfl 160 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 160 + p.val % 32 = p.val; omega
  · rw [← window_apply x 2 0 (by decide) h20 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 6 (by show (6 : Nat) < 9; decide) S30 _ rfl rfl 192 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 192 + p.val % 32 = p.val; omega
  · rw [← window_apply x 2 1 (by decide) h21 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 7 (by show (7 : Nat) < 9; decide) S30 _ rfl rfl 224 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 224 + p.val % 32 = p.val; omega
  · rw [← window_apply x 2 2 (by decide) h22 b p h w (by omega)]
    refine concatenate_apply_piece (t := S288) (1 : Fin 4)
      [⟨S30, extractStridedSlice S30 ![0, 0, 0, 0] x h00⟩,
      ⟨S30, extractStridedSlice S30 ![0, 0, 0, 1] x h01⟩,
      ⟨S30, extractStridedSlice S30 ![0, 0, 0, 2] x h02⟩,
      ⟨S30, extractStridedSlice S30 ![0, 0, 1, 0] x h10⟩,
      ⟨S30, extractStridedSlice S30 ![0, 0, 1, 1] x h11⟩,
      ⟨S30, extractStridedSlice S30 ![0, 0, 1, 2] x h12⟩,
      ⟨S30, extractStridedSlice S30 ![0, 0, 2, 0] x h20⟩,
      ⟨S30, extractStridedSlice S30 ![0, 0, 2, 1] x h21⟩,
      ⟨S30, extractStridedSlice S30 ![0, 0, 2, 2] x h22⟩]
      hc (ix4 b p h w) 8 (by show (8 : Nat) < 9; decide) S30 _ rfl rfl 256 rfl
      (ix4 b (⟨p.val % 32, Nat.mod_lt _ (by decide)⟩ : Fin 32) h w) (fun a ha => ?_) ?_
    · match a with
      | ⟨0, _⟩ => rfl
      | ⟨1, _⟩ => exact absurd rfl ha
      | ⟨2, _⟩ => rfl
      | ⟨3, _⟩ => rfl
    · show 256 + p.val % 32 = p.val; omega

end Cert.LibPatches
-- ==== Proof.HostLayout.lean ====
/-
  Index arithmetic for the re-layouts around the matrix products: each lemma reads a chain of axis permutations,
  reshapes, stretches along new axes, concatenations and sub-blocks at one index and names the single operand index
  it reaches.  Nothing here depends on the element type.
-/
import Idealize.ShloMosaic.Lib.Pipeline.Value
import Idealize.ShloMosaic.Lib.ValueIdx
import proofs.«124124_j20409684591420_2_alg».proof.Proof.Spec

namespace Cert.Layout

open Idealize.ShloMosaic Idealize.ShloMosaic.ValueIdx

variable {α : Type}

/-- Patch rows.  Moving the 288 patch entries to the last axis and then flattening the 30 x 30 output grid puts the
    entry p of position (h, w) at row 30 h + w, column p. -/
theorem rows_apply (y : (⟨4, ![4, 288, 30, 30]⟩ : Shape).Idx → α)
    (ht : (⟨4, ![4, 288, 30, 30]⟩ : Shape).Transposes [0, 2, 3, 1] ⟨4, ![4, 30, 30, 288]⟩)
    (hs : (⟨4, ![4, 30, 30, 288]⟩ : Shape).ShapeCasts ⟨3, ![4, 900, 288]⟩)
    (b : Fin 4) (hh ww : Fin 30) (p : Fin 288) :
    shapeCast ⟨3, ![4, 900, 288]⟩ (transpose ⟨4, ![4, 30, 30, 288]⟩ [0, 2, 3, 1] y ht) hs
        (ix3 b ⟨30 * hh.val + ww.val, by have := hh.isLt; have := ww.isLt; omega⟩ p)
      = y (ix4 b p hh ww) := by
  have h1 := hh.isLt
  have h2 := ww.isLt
  refine (shapeCast_apply _ hs _ (ix4 b hh ww p) ?_).trans ?_
  · rw [Shape.rowMajor_val_four, Shape.rowMajor_val_three]
    show ((b.val * 30 + hh.val) * 30 + ww.val) * 288 + p.val = (b.val * 900 + (30 * hh.val + ww.val)) * 288 + p.val
    omega
  · exact transpose_apply _ _ ht _ _ (fun c => match c with
      | ⟨0, _⟩ => rfl
      | ⟨1, _⟩ => rfl
      | ⟨2, _⟩ => rfl
      | ⟨3, _⟩ => rfl)

/-- Stacked pairs, first member.  Giving each of two arrays a new unit axis after the sample axis, laying the two side by
    side along it and flattening (sample, member) to one axis of 8 puts the first array's sample b at position 2 b. -/
theorem stack_apply_fst (u v : (⟨3, ![4, 900, 288]⟩ : Shape).Idx → α)
    (hb : (⟨3, ![4, 900, 288]⟩ : Shape).BroadcastsInDim ⟨4, ![4, 1, 900, 288]⟩ ![0, 2, 3])
    (hc : Shape.Concatenates [⟨4, ![4, 1, 900, 288]⟩, ⟨4, ![4, 1, 900, 288]⟩] ⟨4, ![4, 2, 900, 288]⟩ 1)
    (hs : (⟨4, ![4, 2, 900, 288]⟩ : Shape).ShapeCasts ⟨3, ![8, 900, 288]⟩)
    (b : Fin 4) (r : Fin 900) (p : Fin 288) :
    shapeCast ⟨3, ![8, 900, 288]⟩
        (concatenate ⟨4, ![4, 2, 900, 288]⟩ 1
          [⟨⟨4, ![4, 1, 900, 288]⟩, broadcastInDim ⟨4, ![4, 1, 900, 288]⟩ ![0, 2, 3] hb u⟩,
           ⟨⟨4, ![4, 1, 900, 288]⟩, broadcastInDim ⟨4, ![4, 1, 900, 288]⟩ ![0, 2, 3] hb v⟩] hc) hs
        (ix3 ⟨2 * b.val, by have := b.isLt; omega⟩ r p)
      = u (ix3 b r p) := by
  refine (shapeCast_apply _ hs _ (ix4 b (⟨0, by omega⟩ : Fin 2) r p) ?_).trans ?_
  · rw [Shape.rowMajor_val_four, Shape.rowMajor_val_three]
    show ((b.val * 2 + 0) * 900 + r.val) * 288 + p.val = ((2 * b.val) * 900 + r.val) * 288 + p.val
    omega
  refine (concatenate_pair_apply_left _ _ _ hc _ rfl (ix4 b (⟨0, by omega⟩ : Fin 1) r p) (fun c => match c with
    | ⟨0, _⟩ => rfl
    | ⟨1, _⟩ => rfl
    | ⟨2, _⟩ => rfl
    | ⟨3, _⟩ => rfl)).trans ?_
  exact broadcastInDim_apply _ hb u _ (ix3 b r p) (fun a => match a with
    | ⟨0, _⟩ => by show b.val = if (4 : Nat) = 1 then 0 else b.val; rfl
    | ⟨1, _⟩ => by show r.val = if (900 : Nat) = 1 then 0 else r.val; rfl
    | ⟨2, _⟩ => by show p.val = if (288 : Nat) = 1 then 0 else p.val; rfl)

/-- Stacked pairs, second member: the second array's sample b sits at position 2 b + 1. -/
theorem stack_apply_snd (u v : (⟨3, ![4, 900, 288]⟩ : Shape).Idx → α)
    (hb : (⟨3, ![4, 900, 288]⟩ : Shape).BroadcastsInDim ⟨4, ![4, 1, 900, 288]⟩ ![0, 2, 3])
    (hc : Shape.Concatenates [⟨4, ![4, 1, 900, 288]⟩, ⟨4, ![4, 1, 900, 288]⟩] ⟨4, ![4, 2, 900, 288]⟩ 1)
    (hs : (⟨4, ![4, 2, 900, 288]⟩ : Shape).ShapeCasts ⟨3, ![8, 900, 288]⟩)
    (b : Fin 4) (r : Fin 900) (p : Fin 288) :
    shapeCast ⟨3, ![8, 900, 288]⟩
        (concatenate ⟨4, ![4, 2, 900, 288]⟩ 1
          [⟨⟨4, ![4, 1, 900, 288]⟩, broadcastInDim ⟨4, ![4, 1, 900, 288]⟩ ![0, 2, 3] hb u⟩,
           ⟨⟨4, ![4, 1, 900, 288]⟩, broadcastInDim ⟨4, ![4, 1, 900, 288]⟩ ![0, 2, 3] hb v⟩] hc) hs
        (ix3 ⟨2 * b.val + 1, by have := b.isLt; omega⟩ r p)
      = v (ix3 b r p) := by
  refine (shapeCast_apply _ hs _ (ix4 b (⟨1, by omega⟩ : Fin 2) r p) ?_).trans ?_
  · rw [Shape.rowMajor_val_four, Shape.rowMajor_val_three]
    show ((b.val * 2 + 1) * 900 + r.val) * 288 + p.val = ((2 * b.val + 1) * 900 + r.val) * 288 + p.val
    omega
  refine (concatenate_pair_apply_right _ _ _ hc _ rfl rfl (ix4 b (⟨0, by omega⟩ : Fin 1) r p) (fun c hne => match c, hne with
    | ⟨0, _⟩, _ => rfl
    | ⟨1, _⟩, hne => absurd rfl hne
    | ⟨2, _⟩, _ => rfl
    | ⟨3, _⟩, _ => rfl) rfl).trans ?_
  exact broadcastInDim_apply _ hb v _ (ix3 b r p) (fun a => match a with
    | ⟨0, _⟩ => by show b.val = if (4 : Nat) = 1 then 0 else b.val; rfl
    | ⟨1, _⟩ => by show r.val = if (900 : Nat) = 1 then 0 else r.val; rfl
    | ⟨2, _⟩ => by show p.val = if (288 : Nat) = 1 then 0 else p.val; rfl)

/-- Filter banks, first bank.  A bank flattened to 288 rows reads, at row p, the window offset and channel that p
    names; of two flattened banks laid side by side the first fills columns 0 … 63. -/
theorem banks_apply_fst (k1 k2 : Spec.KIdx → α)
    (hr : (⟨4, ![3, 3, 32, 64]⟩ : Shape).ShapeCasts ⟨2, ![288, 64]⟩)
    (hc : Shape.Concatenates [⟨2, ![288, 64]⟩, ⟨2, ![288, 64]⟩] ⟨2, ![288, 128]⟩ 1)
    (p : Fin 288) (o : Fin 64) :
    concatenate ⟨2, ![288, 128]⟩ 1
        [⟨⟨2, ![288, 64]⟩, shapeCast ⟨2, ![288, 64]⟩ k1 hr⟩, ⟨⟨2, ![288, 64]⟩, shapeCast ⟨2, ![288, 64]⟩ k2 hr⟩] hc
        (ix2 p ⟨o.val, by have := o.isLt; omega⟩)
      = k1 (ix4 (Spec.rowI p) (Spec.rowJ p) (Spec.rowC p) o) := by
  have hp := p.isLt
  refine (concatenate_pair_apply_left _ _ _ hc _ rfl (ix2 p o) (fun c => match c with
    | ⟨0, _⟩ => rfl
    | ⟨1, _⟩ => rfl)).trans ?_
  refine shapeCast_apply k1 hr _ (ix4 (Spec.rowI p) (Spec.rowJ p) (Spec.rowC p) o) ?_
  rw [Shape.rowMajor_val_four, Shape.rowMajor_val_two]
  show ((p.val / 96 * 3 + p.val / 32 % 3) * 32 + p.val % 32) * 64 + o.val = p.val * 64 + o.val
  omega

/-- Filter banks, second bank: it fills columns 64 … 127. -/
theorem banks_apply_snd (k1 k2 : Spec.KIdx → α)
    (hr : (⟨4, ![3, 3, 32, 64]⟩ : Shape).ShapeCasts ⟨2, ![288, 64]⟩)
    (hc : Shape.Concatenates [⟨2, ![288, 64]⟩, ⟨2, ![288, 64]⟩] ⟨2, ![288, 128]⟩ 1)
    (p : Fin 288) (o : Fin 64) :
    concatenate ⟨2, ![288, 128]⟩ 1
        [⟨⟨2, ![288, 64]⟩, shapeCast ⟨2, ![288, 64]⟩ k1 hr⟩, ⟨⟨2, ![288, 64]⟩, shapeCast ⟨2, ![288, 64]⟩ k2 hr⟩] hc
        (ix2 p ⟨64 + o.val, by have := o.isLt; omega⟩)
      = k2 (ix4 (Spec.rowI p) (Spec.rowJ p) (Spec.rowC p) o) := by
  have hp := p.isLt
  refine (concatenate_pair_apply_right _ _ _ hc _ rfl rfl (ix2 p o) (fun c hne => match c, hne with
    | ⟨0, _⟩, _ => rfl
    | ⟨1, _⟩, hne => absurd rfl hne) (by show o.val + 64 = 64 + o.val; omega)).trans ?_
  refine shapeCast_apply k2 hr _ (ix4 (Spec.rowI p) (Spec.rowJ p) (Spec.rowC p) o) ?_
  rw [Shape.rowMajor_val_four, Shape.rowMajor_val_two]
  show ((p.val / 96 * 3 + p.val / 32 % 3) * 32 + p.val % 32) * 64 + o.val = p.val * 64 + o.val
  omega

/-- Result pieces.  Splitting the axis of 8 back into (sample, member), cutting out member s and the 64 columns from
    `off`, and dropping the unit member axis reads the product at row-block 2 b + s, column off + o. -/
theorem piece_apply (out : (⟨3, ![8, 900, 128]⟩ : Shape).Idx → α)
    (h1 : (⟨3, ![8, 900, 128]⟩ : Shape).ShapeCasts ⟨4, ![4, 2, 900, 128]⟩)
    (s off : Nat) (hs : s < 2) (ho : off + 64 ≤ 128)
    (h2 : (⟨4, ![4, 2, 900, 128]⟩ : Shape).Slices ![0, s, 0, off] ⟨4, ![4, 1, 900, 64]⟩)
    (h3 : (⟨4, ![4, 1, 900, 64]⟩ : Shape).ShapeCasts ⟨3, ![4, 900, 64]⟩)
    (b : Fin 4) (r : Fin 900) (o : Fin 64) :
    shapeCast ⟨3, ![4, 900, 64]⟩
        (extractStridedSlice ⟨4, ![4, 1, 900, 64]⟩ ![0, s, 0, off] (shapeCast ⟨4, ![4, 2, 900, 128]⟩ out h1) h2) h3
        (ix3 b r o)
      = out (ix3 ⟨2 * b.val + s, by have := b.isLt; omega⟩ r ⟨off + o.val, by have := o.isLt; omega⟩) := by
  have hb := b.isLt
  have hoo := o.isLt
  refine (shapeCast_apply _ h3 _ (ix4 b (⟨0, by omega⟩ : Fin 1) r o) ?_).trans ?_
  · rw [Shape.rowMajor_val_four, Shape.rowMajor_val_three]
    show ((b.val * 1 + 0) * 900 + r.val) * 64 + o.val = (b.val * 900 + r.val) * 64 + o.val
    omega
  refine (extractStridedSlice_apply _ _ h2 _
    (ix4 b (⟨s, hs⟩ : Fin 2) r (⟨off + o.val, by omega⟩ : Fin 128)) (fun a => match a with
      | ⟨0, _⟩ => by show b.val = 0 + b.val; omega
      | ⟨1, _⟩ => by show s = s + 0; omega
      | ⟨2, _⟩ => by show r.val = 0 + r.val; omega
      | ⟨3, _⟩ => by show off + o.val = off + o.val; rfl)).trans ?_
  refine shapeCast_apply out h1 _ (ix3 ⟨2 * b.val + s, by omega⟩ r ⟨off + o.val, by omega⟩) ?_
  rw [Shape.rowMajor_val_three, Shape.rowMajor_val_four]
  show ((2 * b.val + s) * 900 + r.val) * 128 + (off + o.val) = ((b.val * 2 + s) * 900 + r.val) * 128 + (off + o.val)
  omega

/-- The result's layout.  Splitting the 900 rows back into the 30 x 30 grid and moving the 64 output channels in front
    of it reads, at (b, o, h, w), row 30 h + w and column o. -/
theorem final_apply (y : (⟨3, ![4, 900, 64]⟩ : Shape).Idx → α)
    (hs : (⟨3, ![4, 900, 64]⟩ : Shape).ShapeCasts ⟨4, ![4, 30, 30, 64]⟩)
    (ht : (⟨4, ![4, 30, 30, 64]⟩ : Shape).Transposes [0, 3, 1, 2] ⟨4, ![4, 64, 30, 30]⟩)
    (b : Fin 4) (o : Fin 64) (hh ww : Fin 30) :
    transpose ⟨4, ![4, 64, 30, 30]⟩ [0, 3, 1, 2] (shapeCast ⟨4, ![4, 30, 30, 64]⟩ y hs) ht (ix4 b o hh ww)
      = y (ix3 b ⟨30 * hh.val + ww.val, by have := hh.isLt; have := ww.isLt; omega⟩ o) := by
  have h1 := hh.isLt
  have h2 := ww.isLt
  refine (transpose_apply _ _ ht _ (ix4 b hh ww o) (fun c => match c with
    | ⟨0, _⟩ => rfl
    | ⟨1, _⟩ => rfl
    | ⟨2, _⟩ => rfl
    | ⟨3, _⟩ => rfl)).trans ?_
  refine shapeCast_apply y hs _ (ix3 b ⟨30 * hh.val + ww.val, by omega⟩ o) ?_
  rw [Shape.rowMajor_val_three, Shape.rowMajor_val_four]
  show (b.val * 900 + (30 * hh.val + ww.val)) * 64 + o.val = ((b.val * 30 + hh.val) * 30 + ww.val) * 64 + o.val
  omega

/-- The bias, stretched first to a 1 x 1 x 64 array and then over samples and rows, reads its entry o everywhere. -/
theorem bias_apply (bias : Spec.BIdx → α)
    (h1 : (⟨1, ![64]⟩ : Shape).BroadcastsInDim ⟨3, ![1, 1, 64]⟩ ![2])
    (h2 : (⟨3, ![1, 1, 64]⟩ : Shape).BroadcastsInDim ⟨3, ![4, 900, 64]⟩ ![0, 1, 2])
    (b : Fin 4) (r : Fin 900) (o : Fin 64) :
    broadcastInDim ⟨3, ![4, 900, 64]⟩ ![0, 1, 2] h2 (broadcastInDim ⟨3, ![1, 1, 64]⟩ ![2] h1 bias) (ix3 b r o)
      = bias (ix1 o) := by
  refine (broadcastInDim_apply _ h2 _ _ (ix3 (⟨0, by omega⟩ : Fin 1) (⟨0, by omega⟩ : Fin 1) o) (fun a => match a with
    | ⟨0, _⟩ => by show (0 : Nat) = if (1 : Nat) = 1 then 0 else b.val; rfl
    | ⟨1, _⟩ => by show (0 : Nat) = if (1 : Nat) = 1 then 0 else r.val; rfl
    | ⟨2, _⟩ => by show o.val = if (64 : Nat) = 1 then 0 else o.val; rfl)).trans ?_
  exact broadcastInDim_apply _ h1 bias _ (ix1 o) (fun a => match a with
    | ⟨0, _⟩ => by show o.val = if (64 : Nat) = 1 then 0 else o.val; rfl)

/-- A scalar stretched over an array reads the scalar everywhere. -/
theorem splat_apply (c : (⟨0, ![]⟩ : Shape).Idx → α)
    (h : (⟨0, ![]⟩ : Shape).BroadcastsInDim ⟨3, ![4, 900, 288]⟩ ![])
    (j : (⟨3, ![4, 900, 288]⟩ : Shape).Idx) :
    broadcastInDim ⟨3, ![4, 900, 288]⟩ ![] h c j = c ix0 :=
  broadcastInDim_apply _ h c j ix0 (fun a => a.elim0)

end Cert.Layout
-- ==== Proof.HostPre.lean ====
/-
  The four arrays the host builds before the region, as functions of the arguments, read at an index.

  From the image x the host cuts the nine shifted 30 x 30 windows, joins them along the channel axis into 288 patch rows,
  moves the patch axis last and flattens the 30 x 30 positions into 900 rows, and clamps below at one tenth; it does the
  same with −x.  The two clamped stacks are interleaved sample by sample: slab 2b is sample b of the image, slab 2b + 1
  sample b of its negation.  The second stack holds log a · a entry by entry.  The two filter banks are flattened to 288
  rows and joined side by side into 128 columns k; the weight matrices are e^k and k e^k.  Rounding to the narrower
  format is the identity on the extended reals.

  So with a_p the clamped patch entry (Spec.clamped) and k_p the filter entry (Spec.weight):
      A1[2b+s, 30h+w, p] = a_p,   A2[2b+s, 30h+w, p] = log a_p · a_p,   G1[p, 64j+o] = e^{k_p},   G2[p, 64j+o] = k_p e^{k_p}.
-/
import proofs.«124124_j20409684591420_2_alg».proof.Proof.IdealFrame
import proofs.«124124_j20409684591420_2_alg».proof.Proof.LibNary9
import proofs.«124124_j20409684591420_2_alg».proof.Proof.LibPatches
import proofs.«124124_j20409684591420_2_alg».proof.Proof.HostLayout
import proofs.«124124_j20409684591420_2_alg».proof.Proof.Spec
import Idealize.ShloMosaic.Lib.StableHlo.Run
import Idealize.ShloMosaic.Lib.ValueIdx

set_option maxRecDepth 16384

noncomputable section

namespace Cert.KernelIdeal.Pre

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Fr

abbrev XArr := FVec Ideal S4x32x32x32 .f32
abbrev KArr := FVec Ideal S3x3x32x64 .f32

/-! ## The arrays as terms of the arguments -/

/-- The nine shifted windows of an image joined along the channel axis. -/
def patchArr (x : XArr) : FVec Ideal S4x288x30x30 .f32 :=
  concatenate S4x288x30x30 1
    [ ⟨S4x32x30x30, extractStridedSlice S4x32x30x30 ![0, 0, 0, 0] x slices_S4x32x32x32_S4x32x30x30_0_0_0_0⟩,
      ⟨S4x32x30x30, extractStridedSlice S4x32x30x30 ![0, 0, 0, 1] x slices_S4x32x32x32_S4x32x30x30_0_0_0_1⟩,
      ⟨S4x32x30x30, extractStridedSlice S4x32x30x30 ![0, 0, 0, 2] x slices_S4x32x32x32_S4x32x30x30_0_0_0_2⟩,
      ⟨S4x32x30x30, extractStridedSlice S4x32x30x30 ![0, 0, 1, 0] x slices_S4x32x32x32_S4x32x30x30_0_0_1_0⟩,
      ⟨S4x32x30x30, extractStridedSlice S4x32x30x30 ![0, 0, 1, 1] x slices_S4x32x32x32_S4x32x30x30_0_0_1_1⟩,
      ⟨S4x32x30x30, extractStridedSlice S4x32x30x30 ![0, 0, 1, 2] x slices_S4x32x32x32_S4x32x30x30_0_0_1_2⟩,
      ⟨S4x32x30x30, extractStridedSlice S4x32x30x30 ![0, 0, 2, 0] x slices_S4x32x32x32_S4x32x30x30_0_0_2_0⟩,
      ⟨S4x32x30x30, extractStridedSlice S4x32x30x30 ![0, 0, 2, 1] x slices_S4x32x32x32_S4x32x30x30_0_0_2_1⟩,
      ⟨S4x32x30x30, extractStridedSlice S4x32x30x30 ![0, 0, 2, 2] x slices_S4x32x32x32_S4x32x30x30_0_0_2_2⟩ ]
    concatenates_S4x32x30x30_S4x32x30x30_S4x32x30x30_S4x32x30x30_S4x32x30x30_S4x32x30x30_S4x32x30x30_S4x32x30x30_S4x32x30x30_S4x288x30x30_d1

/-- Positions flattened to 900 rows, the 288 patch rows last. -/
def rowsArr (x : XArr) : FVec Ideal S4x900x288 .f32 :=
  shapeCast S4x900x288 (transpose S4x30x30x288 [0, 2, 3, 1] (patchArr x) transposes_S4x288x30x30_S4x30x30x288_0_2_3_1)
    shapeCasts_S4x30x30x288_S4x900x288

/-- Clamped below at one tenth. -/
def clampArr (x : XArr) : FVec Ideal S4x900x288 .f32 :=
  maximumf (rowsArr x) (broadcastInDim S4x900x288 ![] bcast_S_S4x900x288 (constant (F := Ideal) S_ .f32 0x3DCCCCCD#32))

/-- log a · a. -/
def logTimes (x : XArr) : FVec Ideal S4x900x288 .f32 :=
  mulf (Host.log (clampArr x)) (clampArr x)

/-- Two stacks of four slabs interleaved into one of eight. -/
def interleave (u v : FVec Ideal S4x900x288 .f32) : FVec Ideal S8x900x288 .f32 :=
  shapeCast S8x900x288
    (concatenate S4x2x900x288 1
      [⟨S4x1x900x288, broadcastInDim S4x1x900x288 ![0, 2, 3] bcast_S4x900x288_S4x1x900x288_0_2_3 u⟩,
       ⟨S4x1x900x288, broadcastInDim S4x1x900x288 ![0, 2, 3] bcast_S4x900x288_S4x1x900x288_0_2_3 v⟩]
      concatenates_S4x1x900x288_S4x1x900x288_S4x2x900x288_d1)
    shapeCasts_S4x2x900x288_S8x900x288

def a1Arr (x : XArr) : FVec Ideal S8x900x288 .bf16 :=
  truncf .bf16 (interleave (clampArr x) (clampArr (Host.negf x))) bitsLt_bf16_f32

def a2Arr (x : XArr) : FVec Ideal S8x900x288 .bf16 :=
  truncf .bf16 (interleave (logTimes x) (logTimes (Host.negf x))) bitsLt_bf16_f32

/-- The two flattened filter banks side by side. -/
def banksArr (k1 k2 : KArr) : FVec Ideal S288x128 .f32 :=
  concatenate S288x128 1
    [⟨S288x64, shapeCast S288x64 k1 shapeCasts_S3x3x32x64_S288x64⟩, ⟨S288x64, shapeCast S288x64 k2 shapeCasts_S3x3x32x64_S288x64⟩]
    concatenates_S288x64_S288x64_S288x128_d1

def g1Arr (k1 k2 : KArr) : FVec Ideal S288x128 .bf16 :=
  truncf .bf16 (Host.exp (banksArr k1 k2)) bitsLt_bf16_f32

def g2Arr (k1 k2 : KArr) : FVec Ideal S288x128 .bf16 :=
  truncf .bf16 (mulf (banksArr k1 k2) (Host.exp (banksArr k1 k2))) bitsLt_bf16_f32

/-! ## They are what the region finds -/

/-- One pass over the host lines: each line's result at its own buffer is its function of its operands' contents, and at
    any other buffer what was there. -/
macro "host_results" : tactic =>
  `(tactic| (simp (disch := decide) only [after_cons, after_nil,
      nullary_result', unary_result', binary_result', reshape_result', Cert.LibNary9.nary9_result',
      nullary_result_ne', unary_result_ne', binary_result_ne', reshape_result_ne', nary_result_ne']))

variable (m : (ℓ : Loc nD τ sig) → Buf (Elt Ideal) ℓ)

set_option maxHeartbeats 4000000 in
theorem V_a1 (c : Dev nD) : V m c main_v40 = a1Arr (m ((c : Thread nD τ).loc main_arg0)) := by
  show StableHlo.after hostOps0 (fun b => m (c, b)) (Proc.devRef .tc main_v40) = _
  host_results
  rfl

set_option maxHeartbeats 4000000 in
theorem V_a2 (c : Dev nD) : V m c main_v45 = a2Arr (m ((c : Thread nD τ).loc main_arg0)) := by
  show StableHlo.after hostOps0 (fun b => m (c, b)) (Proc.devRef .tc main_v45) = _
  host_results
  rfl

set_option maxHeartbeats 4000000 in
theorem V_g1 (c : Dev nD) : V m c main_v48 = g1Arr (m ((c : Thread nD τ).loc main_arg1)) (m ((c : Thread nD τ).loc main_arg2)) := by
  show StableHlo.after hostOps0 (fun b => m (c, b)) (Proc.devRef .tc main_v48) = _
  host_results
  rfl

set_option maxHeartbeats 4000000 in
theorem V_g2 (c : Dev nD) : V m c main_v49 = g2Arr (m ((c : Thread nD τ).loc main_arg1)) (m ((c : Thread nD τ).loc main_arg2)) := by
  show StableHlo.after hostOps0 (fun b => m (c, b)) (Proc.devRef .tc main_v49) = _
  host_results
  rfl

/-! ## Read at an index -/

/-- Row 30 h + w. -/
def pos (h w : Fin 30) : Fin 900 := ⟨30 * h.val + w.val, by have := h.isLt; have := w.isLt; omega⟩

theorem rowsArr_at (x : XArr) (b : Fin 4) (h w : Fin 30) (p : Fin 288) :
    rowsArr x (ix3 b (pos h w) p) = x (Spec.pixel b h w p) := by
  unfold rowsArr patchArr
  exact (Cert.Layout.rows_apply _ _ _ b h w p).trans (Cert.LibPatches.patches_apply x _ _ _ _ _ _ _ _ _ _ b p h w)

theorem clampArr_at (x : XArr) (b : Fin 4) (h w : Fin 30) (p : Fin 288) :
    clampArr x (ix3 b (pos h w) p) = max (x (Spec.pixel b h w p)) Spec.level := by
  unfold clampArr
  show max (rowsArr x (ix3 b (pos h w) p)) _ = _
  rw [rowsArr_at]
  rfl

theorem neg_at (x : XArr) (i : S4x32x32x32.Idx) : Host.negf x i = -(x i) := rfl

/-- The clamped stack of the image or of its negation at (b, 30 h + w, p) is a_p. -/
theorem clamped_at (x : XArr) (s : Bool) (b : Fin 4) (h w : Fin 30) (p : Fin 288) :
    clampArr (if s then Host.negf x else x) (ix3 b (pos h w) p) = Spec.clamped x s b h w p := by
  rw [clampArr_at]
  unfold Spec.clamped
  cases s <;> rfl

/-- Slab 2 b + s of the interleaved stack is sample b of the first (s = 0) or second (s = 1) operand. -/
def slabOf (b : Fin 4) (s : Bool) : Fin 8 := ⟨2 * b.val + (if s then 1 else 0), by have := b.isLt; cases s <;> simp <;> omega⟩

theorem interleave_at (u v : FVec Ideal S4x900x288 .f32) (s : Bool) (b : Fin 4) (r : Fin 900) (p : Fin 288) :
    interleave u v (ix3 (slabOf b s) r p) = (if s then v else u) (ix3 b r p) := by
  unfold interleave
  cases s
  · exact Cert.Layout.stack_apply_fst u v _ _ _ b r p
  · exact Cert.Layout.stack_apply_snd u v _ _ _ b r p

theorem a1_at (x : XArr) (s : Bool) (b : Fin 4) (h w : Fin 30) (p : Fin 288) :
    a1Arr x (ix3 (slabOf b s) (pos h w) p) = Spec.clamped x s b h w p := by
  unfold a1Arr
  show interleave (clampArr x) (clampArr (Host.negf x)) (ix3 (slabOf b s) (pos h w) p) = _
  rw [interleave_at, ← clamped_at]
  cases s <;> rfl

theorem a2_at (x : XArr) (s : Bool) (b : Fin 4) (h w : Fin 30) (p : Fin 288) :
    a2Arr x (ix3 (slabOf b s) (pos h w) p) = Ideal.log (Spec.clamped x s b h w p) * Spec.clamped x s b h w p := by
  unfold a2Arr
  show interleave (logTimes x) (logTimes (Host.negf x)) (ix3 (slabOf b s) (pos h w) p) = _
  rw [interleave_at, ← clamped_at]
  cases s <;> rfl

/-- Column 64 j + o of the joined banks is column o of bank j. -/
def colOf (j : Bool) (o : Fin 64) : Fin 128 := ⟨(if j then 64 else 0) + o.val, by have := o.isLt; cases j <;> simp <;> omega⟩

theorem banks_at (k1 k2 : KArr) (j : Bool) (p : Fin 288) (o : Fin 64) :
    banksArr k1 k2 (ix2 p (colOf j o)) = Spec.weight (if j then k2 else k1) o p := by
  unfold banksArr Spec.weight
  cases j
  · refine Eq.trans (congrArg _ ?_) (Cert.Layout.banks_apply_fst k1 k2 _ _ p o)
    funext a; match a with | ⟨0, _⟩ => rfl | ⟨1, _⟩ => exact Fin.ext (by simp [colOf])
  · exact Cert.Layout.banks_apply_snd k1 k2 _ _ p o

theorem g1_at (k1 k2 : KArr) (j : Bool) (p : Fin 288) (o : Fin 64) :
    g1Arr k1 k2 (ix2 p (colOf j o)) = Ideal.exp (Spec.weight (if j then k2 else k1) o p) := by
  unfold g1Arr
  show Ideal.exp (banksArr k1 k2 (ix2 p (colOf j o))) = _
  rw [banks_at]

theorem g2_at (k1 k2 : KArr) (j : Bool) (p : Fin 288) (o : Fin 64) :
    g2Arr k1 k2 (ix2 p (colOf j o)) = Spec.weight (if j then k2 else k1) o p * Ideal.exp (Spec.weight (if j then k2 else k1) o p) := by
  unfold g2Arr
  show banksArr k1 k2 (ix2 p (colOf j o)) * Ideal.exp (banksArr k1 k2 (ix2 p (colOf j o))) = _
  rw [banks_at]

end Cert.KernelIdeal.Pre

end
-- ==== Proof.HostTail.lean ====
/-
  The host lines after the region, and with them the whole result of the kernel program as a function of the arguments.

  The region's result has eight slabs of 900 rows and 128 columns.  The host regroups the slabs as 4 samples by 2 signs,
  cuts the four pieces (sign s, column half j), and forms  piece(0,0) − piece(0,1) − piece(1,0) + piece(1,1) + bias,
  then lays the 900 rows out again as 30 x 30 positions with the 64 channels moved in front of them.  So the result at
  (b, o, h, w) is   out[2b, 30h+w, o] − out[2b, 30h+w, 64+o] − out[2b+1, 30h+w, o] + out[2b+1, 30h+w, 64+o] + bias[o],
  and each of the four entries of out is the ratio form of one (sign, bank) branch.
-/
import proofs.«124124_j20409684591420_2_alg».proof.Proof.BlockValue
import proofs.«124124_j20409684591420_2_alg».proof.Proof.HostPre

set_option maxRecDepth 16384

noncomputable section

open scoped BigOperators

namespace Cert.KernelIdeal.Tail

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Fr Cert.KernelIdeal.Pre Cert.KernelIdeal.Val

abbrev OutArr := FVec Ideal S8x900x128 .f32
abbrev BiasArr := FVec Ideal S64 .f32

/-- The piece of sign s and column offset off, as 4 x 900 x 64. -/
def piece (out : OutArr) (s off : Nat) (h2 : S4x2x900x128.Slices ![0, s, 0, off] S4x1x900x64) : FVec Ideal S4x900x64 .f32 :=
  shapeCast S4x900x64 (extractStridedSlice S4x1x900x64 ![0, s, 0, off] (shapeCast S4x2x900x128 out shapeCasts_S8x900x128_S4x2x900x128) h2)
    shapeCasts_S4x1x900x64_S4x900x64

/-- The combination of the four pieces and the bias, before the final layout. -/
def combined (out : OutArr) (bias : BiasArr) : FVec Ideal S4x900x64 .f32 :=
  addf (addf (subf (subf (piece out 0 0 slices_S4x2x900x128_S4x1x900x64_0_0_0_0) (piece out 0 64 slices_S4x2x900x128_S4x1x900x64_0_0_0_64))
      (piece out 1 0 slices_S4x2x900x128_S4x1x900x64_0_1_0_0)) (piece out 1 64 slices_S4x2x900x128_S4x1x900x64_0_1_0_64))
    (broadcastInDim S4x900x64 ![0, 1, 2] bcast_S1x1x64_S4x900x64_0_1_2 (broadcastInDim S1x1x64 ![2] bcast_S64_S1x1x64_2 bias))

/-- The program's result from the region's result and the bias. -/
def resultArr (out : OutArr) (bias : BiasArr) : FVec Ideal S4x64x30x30 .f32 :=
  transpose S4x64x30x30 [0, 3, 1, 2] (shapeCast S4x30x30x64 (combined out bias) shapeCasts_S4x900x64_S4x30x30x64)
    transposes_S4x30x30x64_S4x64x30x30_0_3_1_2

set_option maxHeartbeats 4000000 in
/-- Whatever the buffers hold when the lines after the region start, the result buffer ends at `resultArr` of the
    region's result buffer and the bias. -/
theorem tail_of (W : Valuation τ sig (Elt Ideal)) :
    StableHlo.after hostOps1 W (Proc.devRef .tc main_v67)
      = resultArr (W (Proc.devRef .tc main_v50)) (W (Proc.devRef .tc main_arg3)) := by
  host_results
  rfl

variable (m : (ℓ : Loc nD τ sig) → Buf (Elt Ideal) ℓ)

/-- The result buffer after the whole program. -/
theorem result_value (c : Dev nD) :
    Pipeline.afterTail₀ cfgs (dats m) 0 (V0 m) [hostOps1] c main_v67
      = resultArr (regionOut (V m c main_v40) (V m c main_v45) (V m c main_v48) (V m c main_v49)) (m ((c : Thread nD τ).loc main_arg3)) := by
  unfold Pipeline.afterTail₀
  show StableHlo.after hostOps1 _ (Proc.devRef .tc main_v67) = _
  rw [tail_of]
  refine congrArg₂ resultArr ?_ ?_
  · exact (Pipeline.withArrays_arr spec0 launch0.win.arr_inj c _ _ 4).trans (Val.final m c)
  · exact (Pipeline.withArrays_of_ne spec0 c (V0 m c) _ main_arg3 (args_not_arrays main_arg3 (by simp))).trans (V_arg m c main_arg3 (by simp))

/-! ## Read at an index -/

theorem piece_at (out : OutArr) (s : Bool) (j : Bool) (h2) (b : Fin 4) (r : Fin 900) (o : Fin 64) :
    piece out (if s then 1 else 0) (if j then 64 else 0) h2 (ix3 b r o) = out (ix3 (slabOf b s) r (colOf j o)) := by
  unfold piece
  refine (Cert.Layout.piece_apply out _ (if s then 1 else 0) (if j then 64 else 0) (by cases s <;> simp) (by cases j <;> simp) h2 _ b r o).trans ?_
  exact congrArg out (by funext a; match a with | ⟨0, _⟩ => rfl | ⟨1, _⟩ => rfl | ⟨2, _⟩ => rfl)

theorem result_at (out : OutArr) (bias : BiasArr) (b : Fin 4) (o : Fin 64) (h w : Fin 30) :
    resultArr out bias (ix4 b o h w)
      = out (ix3 (slabOf b false) (pos h w) (colOf false o)) - out (ix3 (slabOf b false) (pos h w) (colOf true o))
        - out (ix3 (slabOf b true) (pos h w) (colOf false o)) + out (ix3 (slabOf b true) (pos h w) (colOf true o)) + bias (ix1 o) := by
  unfold resultArr
  refine (Cert.Layout.final_apply _ _ _ b o h w).trans ?_
  show combined out bias (ix3 b (pos h w) o) = _
  unfold combined
  show piece out 0 0 _ (ix3 b (pos h w) o) - piece out 0 64 _ (ix3 b (pos h w) o) - piece out 1 0 _ (ix3 b (pos h w) o)
      + piece out 1 64 _ (ix3 b (pos h w) o) + broadcastInDim S4x900x64 ![0, 1, 2] _ (broadcastInDim S1x1x64 ![2] _ bias) (ix3 b (pos h w) o) = _
  refine congrArg₂ (· + ·) (congrArg₂ (· + ·) (congrArg₂ (· - ·) (congrArg₂ (· - ·) ?_ ?_) ?_) ?_) ?_
  · exact piece_at out false false _ b (pos h w) o
  · exact piece_at out false true _ b (pos h w) o
  · exact piece_at out true false _ b (pos h w) o
  · exact piece_at out true true _ b (pos h w) o
  · exact Cert.Layout.bias_apply bias _ _ b (pos h w) o

/-- One entry of the region's result is the ratio form of one branch. -/
theorem branch_at (x : XArr) (k1 k2 : KArr) (s j : Bool) (b : Fin 4) (o : Fin 64) (h w : Fin 30) :
    regionOut (a1Arr x) (a2Arr x) (g1Arr k1 k2) (g2Arr k1 k2) (ix3 (slabOf b s) (pos h w) (colOf j o))
      = Spec.ratioBranch (Spec.clamped x s b h w) (Spec.weight (if j then k2 else k1) o) := by
  unfold regionOut Spec.ratioBranch
  show Ideal.exp (Ideal.div
    ((∑ p : Fin 288, a2Arr x (ix3 (slabOf b s) (pos h w) p) * g1Arr k1 k2 (ix2 p (colOf j o)))
      + ∑ p : Fin 288, a1Arr x (ix3 (slabOf b s) (pos h w) p) * g2Arr k1 k2 (ix2 p (colOf j o)))
    (∑ p : Fin 288, a1Arr x (ix3 (slabOf b s) (pos h w) p) * g1Arr k1 k2 (ix2 p (colOf j o)))) = _
  simp only [a1_at, a2_at, g1_at, g2_at]

/-- The kernel program's result, entry by entry, is the ratio-form specification. -/
theorem kernel_at (c : Dev nD) (b : Fin 4) (o : Fin 64) (h w : Fin 30) :
    Pipeline.afterTail₀ cfgs (dats m) 0 (V0 m) [hostOps1] c main_v67 (ix4 b o h w)
      = Spec.kerOut (m ((c : Thread nD τ).loc main_arg0)) (m ((c : Thread nD τ).loc main_arg1)) (m ((c : Thread nD τ).loc main_arg2))
          (m ((c : Thread nD τ).loc main_arg3)) b o h w := by
  rw [result_value, V_a1, V_a2, V_g1, V_g2, result_at]
  simp only [branch_at]
  rfl

end Cert.KernelIdeal.Tail

end
-- ==== Proof.Law.lean ====
/-
  The algebraic law behind the two forms of one branch, and with it the equality of the two results.

  For positive reals a_p and reals k_p put z_p = log a_p + k_p and let M be any real (here: the largest z_p).
  Then exp (z_p − M) = a_p e^{k_p} e^{−M}, so the common factor e^{−M} cancels between a softmax weight's
  numerator and denominator:
      Σ_p z_p · (e^{z_p − M} / Σ_q e^{z_q − M}) = (Σ_p z_p a_p e^{k_p}) / (Σ_p a_p e^{k_p}),
  and splitting z_p = log a_p + k_p in the numerator gives
      (Σ_p (log a_p · a_p) e^{k_p} + Σ_p a_p (k_p e^{k_p})) / Σ_p a_p e^{k_p}.
  All sums here are sums of reals and both denominators are positive, so the identity proved over the reals
  carries over to the extended reals by pushing the embedding through sums, products and the special functions.
-/
import proofs.«124124_j20409684591420_2_alg».proof.Proof.Spec

noncomputable section

open scoped BigOperators

namespace Cert.Spec

open Idealize.ShloMosaic

/-- The clamp level is the real 13421773 · 2⁻²⁷. -/
theorem level_eq : level = ((13421773 / 134217728 : ℝ) : EReal) := by
  unfold level
  simp [Ideal.ofBits, Ideal.ieee, -EReal.coe_mul]
  norm_num

/-- The clamp level is a positive real. -/
theorem level_pos : ∃ r : ℝ, 0 < r ∧ level = (r : EReal) :=
  ⟨13421773 / 134217728, by norm_num, level_eq⟩

/-- The embedding of the reals commutes with finite sums. -/
theorem coe_sum {ι : Type*} (s : Finset ι) (f : ι → ℝ) :
    ((∑ p ∈ s, f p : ℝ) : EReal) = ∑ p ∈ s, (f p : EReal) := by
  classical
  induction s using Finset.induction_on with
  | empty => simp
  | insert a s ha ih => rw [Finset.sum_insert ha, Finset.sum_insert ha, EReal.coe_add, ih]

/-- The largest of 288 reals is one of them, hence a real. -/
theorem top_real (z : Fin 288 → ℝ) : ∃ M : ℝ, top (fun p => (z p : EReal)) = (M : EReal) := by
  obtain ⟨i, -, hi⟩ := Finset.exists_mem_eq_sup (Finset.univ : Finset (Fin 288)) Finset.univ_nonempty
    (fun p => (z p : EReal))
  refine ⟨z i, ?_⟩
  unfold top
  rw [max_eq_right bot_le]
  exact hi

/-- The identity over the reals. -/
theorem real_law (a k : Fin 288 → ℝ) (ha : ∀ p, 0 < a p) (M : ℝ) :
    ∑ p, (Real.log (a p) + k p) *
        (Real.exp (Real.log (a p) + k p - M) * (1 / ∑ q, Real.exp (Real.log (a q) + k q - M)))
      = ((∑ p, (Real.log (a p) * a p) * Real.exp (k p)) + ∑ p, a p * (k p * Real.exp (k p)))
          * (1 / ∑ p, a p * Real.exp (k p)) := by
  have hexp : ∀ p, Real.exp (Real.log (a p) + k p - M) = a p * Real.exp (k p) * Real.exp (-M) := by
    intro p
    rw [sub_eq_add_neg, Real.exp_add, Real.exp_add, Real.exp_log (ha p)]
  have hD : 0 < ∑ p, a p * Real.exp (k p) :=
    Finset.sum_pos (fun p _ => mul_pos (ha p) (Real.exp_pos _)) Finset.univ_nonempty
  have hc : 0 < Real.exp (-M) := Real.exp_pos _
  have hS : ∑ q, a q * Real.exp (k q) * Real.exp (-M) = (∑ q, a q * Real.exp (k q)) * Real.exp (-M) :=
    (Finset.sum_mul _ _ _).symm
  have hR : ((∑ p, (Real.log (a p) * a p) * Real.exp (k p)) + ∑ p, a p * (k p * Real.exp (k p)))
        * (1 / ∑ p, a p * Real.exp (k p))
      = ∑ p, ((Real.log (a p) * a p) * Real.exp (k p) + a p * (k p * Real.exp (k p)))
          * (1 / ∑ q, a q * Real.exp (k q)) := by
    rw [← Finset.sum_add_distrib, Finset.sum_mul]
  simp only [hexp]
  rw [hR, hS]
  have hD' : (∑ q, a q * Real.exp (k q)) ≠ 0 := hD.ne'
  have hc' : Real.exp (-M) ≠ 0 := hc.ne'
  generalize (∑ q, a q * Real.exp (k q)) = D at hD' ⊢
  generalize Real.exp (-M) = c at hc' ⊢
  refine Finset.sum_congr rfl fun p _ => ?_
  field_simp

/-- One branch: on positive reals a and reals k the softmax form equals the ratio form. -/
theorem branch_law (a k : Fin 288 → ℝ) (ha : ∀ p, 0 < a p) :
    softBranch (fun p => Ideal.log (a p : EReal) + (k p : EReal))
      = ratioBranch (fun p => (a p : EReal)) (fun p => (k p : EReal)) := by
  have hlog : ∀ p, Ideal.log (a p : EReal) = ((Real.log (a p) : ℝ) : EReal) := by
    intro p
    rw [Ideal.log_coe, if_neg (not_le.mpr (ha p))]
  have hz : (fun p => Ideal.log (a p : EReal) + (k p : EReal))
      = fun p => ((Real.log (a p) + k p : ℝ) : EReal) := by
    funext p
    rw [hlog, EReal.coe_add]
  obtain ⟨M, hM⟩ := top_real (fun p => Real.log (a p) + k p)
  have hS : (∑ q, Real.exp (Real.log (a q) + k q - M)) ≠ 0 :=
    (Finset.sum_pos (fun q _ => Real.exp_pos _) Finset.univ_nonempty).ne'
  have hD : (∑ p, a p * Real.exp (k p)) ≠ 0 :=
    (Finset.sum_pos (fun p _ => mul_pos (ha p) (Real.exp_pos _)) Finset.univ_nonempty).ne'
  -- the softmax-weighted mean is the embedding of a real
  have hL : (∑ p, ((Real.log (a p) + k p : ℝ) : EReal) *
        Ideal.div (Ideal.exp (((Real.log (a p) + k p : ℝ) : EReal) - (M : EReal)))
          (∑ q, Ideal.exp (((Real.log (a q) + k q : ℝ) : EReal) - (M : EReal))))
      = ((∑ p, (Real.log (a p) + k p) *
          (Real.exp (Real.log (a p) + k p - M) * (1 / ∑ q, Real.exp (Real.log (a q) + k q - M))) : ℝ) : EReal) := by
    have h1 : ∀ p, Ideal.exp (((Real.log (a p) + k p : ℝ) : EReal) - (M : EReal))
        = ((Real.exp (Real.log (a p) + k p - M) : ℝ) : EReal) := by
      intro p
      rw [← EReal.coe_sub, Ideal.exp_coe]
    have hsum : (∑ q, Ideal.exp (((Real.log (a q) + k q : ℝ) : EReal) - (M : EReal)))
        = ((∑ q, Real.exp (Real.log (a q) + k q - M) : ℝ) : EReal) := by
      rw [coe_sum]
      exact Finset.sum_congr rfl fun q _ => h1 q
    rw [coe_sum, hsum]
    refine Finset.sum_congr rfl fun p _ => ?_
    rw [h1, Ideal.div_coe hS, EReal.coe_mul, EReal.coe_mul]
  -- the ratio of the plain sums is the embedding of a real
  have hR : Ideal.div ((∑ p, (Ideal.log (a p : EReal) * (a p : EReal)) * Ideal.exp (k p : EReal))
        + ∑ p, (a p : EReal) * ((k p : EReal) * Ideal.exp (k p : EReal)))
        (∑ p, (a p : EReal) * Ideal.exp (k p : EReal))
      = ((((∑ p, (Real.log (a p) * a p) * Real.exp (k p)) + ∑ p, a p * (k p * Real.exp (k p)))
          * (1 / ∑ p, a p * Real.exp (k p)) : ℝ) : EReal) := by
    have hden : (∑ p, (a p : EReal) * Ideal.exp (k p : EReal))
        = ((∑ p, a p * Real.exp (k p) : ℝ) : EReal) := by
      rw [coe_sum]
      exact Finset.sum_congr rfl fun p _ => by rw [Ideal.exp_coe, EReal.coe_mul]
    have hn1 : (∑ p, (Ideal.log (a p : EReal) * (a p : EReal)) * Ideal.exp (k p : EReal))
        = ((∑ p, (Real.log (a p) * a p) * Real.exp (k p) : ℝ) : EReal) := by
      rw [coe_sum]
      exact Finset.sum_congr rfl fun p _ => by rw [hlog, Ideal.exp_coe, EReal.coe_mul, EReal.coe_mul]
    have hn2 : (∑ p, (a p : EReal) * ((k p : EReal) * Ideal.exp (k p : EReal)))
        = ((∑ p, a p * (k p * Real.exp (k p)) : ℝ) : EReal) := by
      rw [coe_sum]
      exact Finset.sum_congr rfl fun p _ => by rw [Ideal.exp_coe, EReal.coe_mul, EReal.coe_mul]
    rw [hden, hn1, hn2, Ideal.div_coe hD, ← EReal.coe_add, ← EReal.coe_mul]
  rw [hz]
  unfold softBranch ratioBranch
  rw [hM, hL, hR, real_law a k ha M]

/-- A clamped patch entry of a real image is a positive real. -/
theorem clamped_real (x : XIdx → EReal) (hx : ∀ i, ∃ r : ℝ, x i = (r : EReal)) (s : Bool) (b : Fin 4)
    (h w : Fin 30) :
    ∃ a : Fin 288 → ℝ, (∀ p, 0 < a p) ∧ clamped x s b h w = fun p => (a p : EReal) := by
  obtain ⟨L, hLpos, hL⟩ := level_pos
  choose r hr using hx
  refine ⟨fun p => max (if s then -(r (pixel b h w p)) else r (pixel b h w p)) L,
    fun p => lt_max_of_lt_right hLpos, ?_⟩
  funext p
  unfold clamped
  rw [hr, hL, EReal.coe_strictMono.monotone.map_max]
  cases s
  · rfl
  · rfl

/-- A row of a real filter bank is real. -/
theorem weight_real (k : KIdx → EReal) (hk : ∀ i, ∃ r : ℝ, k i = (r : EReal)) (o : Fin 64) :
    ∃ kr : Fin 288 → ℝ, weight k o = fun p => (kr p : EReal) := by
  choose r hr using hk
  exact ⟨fun p => r (Idealize.ShloMosaic.ValueIdx.ix4 (rowI p) (rowJ p) (rowC p) o), funext fun p => hr _⟩

/-- One branch of the two results agrees, for a real image and a real filter bank. -/
theorem branch_eq (x : XIdx → EReal) (k : KIdx → EReal) (hx : ∀ i, ∃ r : ℝ, x i = (r : EReal))
    (hk : ∀ i, ∃ r : ℝ, k i = (r : EReal)) (s : Bool) (b : Fin 4) (o : Fin 64) (h w : Fin 30) :
    softBranch (score x k s b o h w) = ratioBranch (clamped x s b h w) (weight k o) := by
  obtain ⟨a, ha, hc⟩ := clamped_real x hx s b h w
  obtain ⟨kr, hw⟩ := weight_real k hk o
  have hs : score x k s b o h w = fun p => Ideal.log (a p : EReal) + (kr p : EReal) := by
    funext p
    unfold score
    rw [hc, hw]
  rw [hs, hc, hw]
  exact branch_law a kr ha

/-- The two results agree on real inputs. -/
theorem refOut_eq_kerOut (x : XIdx → EReal) (k1 k2 : KIdx → EReal) (bias : BIdx → EReal)
    (hx : ∀ i, ∃ r : ℝ, x i = (r : EReal)) (hk1 : ∀ i, ∃ r : ℝ, k1 i = (r : EReal))
    (hk2 : ∀ i, ∃ r : ℝ, k2 i = (r : EReal))
    (b : Fin 4) (o : Fin 64) (h w : Fin 30) :
    refOut x k1 k2 bias b o h w = kerOut x k1 k2 bias b o h w := by
  unfold refOut kerOut
  rw [branch_eq x k1 hx hk1 false, branch_eq x k2 hx hk2 false, branch_eq x k1 hx hk1 true,
    branch_eq x k2 hx hk2 true]

end Cert.Spec

end
-- ==== Proof.Finite.lean ====
/-
  The precondition, read back: each of the image and the two filter banks has only real entries.

  The precondition is the conjunction, over the four argument arrays, of "every entry x has |x| < +∞", where |x| is
  max x (−x) on the extended reals.  An extended real with max x (−x) < +∞ is neither +∞ (then max is +∞) nor −∞
  (then −x is +∞), hence a real.  A conjunction of one-bit words that is 1 has every conjunct 1, and a reduction by
  "and" over all axes that is 1 had a 1 at every index.
-/
import proofs.«124124_j20409684591420_2_alg».proof.Defs
import proofs.«124124_j20409684591420_2_alg».proof.Proof.Gen.Pre_finite_inputs
import proofs.«124124_j20409684591420_2_alg».proof.Proof.Gen.KernelIdeal
import Idealize.ShloMosaic.Lib.ReduceAll
import Idealize.ShloMosaic.Lib.ValueIdx

noncomputable section

namespace Cert.Finite

open Idealize.ShloMosaic Idealize.SL.Sem

/-- The shape with no axes has one index. -/
instance : Subsingleton Cert.Pre_finite_inputs.S_.Idx := ⟨fun a b => funext fun d => d.elim0⟩

/-- The single-precision pattern of +∞ denotes +∞. -/
theorem ofBits_inf : Ideal.ofBits .f32 0x7F800000#32 = ⊤ := by
  simp [Ideal.ofBits, Ideal.ieee]

/-- An extended real whose absolute value lies strictly below +∞ is a real. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The printed predicate being all ones makes the first three arguments real, entry by entry. -/
theorem of_fn (x0 : FVec Ideal Cert.Pre_finite_inputs.S4x32x32x32 .f32)
    (x1 x2 : FVec Ideal Cert.Pre_finite_inputs.S3x3x32x64 .f32) (x3 : FVec Ideal Cert.Pre_finite_inputs.S64 .f32)
    (h : Cert.Pre_finite_inputs.fn (F := Ideal) x0 x1 x2 x3 = (fun _ => 1#1)) :
    (∀ i, ∃ r : ℝ, x0 i = (r : EReal)) ∧ (∀ i, ∃ r : ℝ, x1 i = (r : EReal))
      ∧ (∀ i, ∃ r : ℝ, x2 i = (r : EReal)) := by
  have h0 := congrFun h ValueIdx.ix0
  dsimp only [Cert.Pre_finite_inputs.fn, Cert.Pre_finite_inputs.fn_part1, andi] at h0
  obtain ⟨h012, -⟩ := IntOp.andi_eq_one.1 h0
  obtain ⟨h01, h2⟩ := IntOp.andi_eq_one.1 h012
  obtain ⟨hx0, hx1⟩ := IntOp.andi_eq_one.1 h01
  refine ⟨fun i => real_of_abs_lt _ (Host.reduce_andi_all _ _ _ _ _ hx0 i),
    fun i => real_of_abs_lt _ (Host.reduce_andi_all _ _ _ _ _ hx1 i),
    fun i => real_of_abs_lt _ (Host.reduce_andi_all _ _ _ _ _ h2 i)⟩

/-- Under the precondition the image and the two filter banks hold only reals, on every device. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  of_fn _ _ _ _ (h c)

end Cert.Finite

end
-- ==== Proof.RefBranch.lean ====
/-
  One branch of the reference, read at an index.

  A branch takes the array L of logarithms of the clamped patch entries (sample, row, position) and a flattened
  filter bank K (row, output channel).  It spreads both over the five coordinates (sample, row, channel, position),
  adds them to get the scores z, takes the largest score over the 288 rows (a fold from minus infinity followed by one
  more maximum against minus infinity), subtracts it, exponentiates, normalises by the sum over the rows, weights the
  scores with the result, sums over the rows again and exponentiates.  Each step reads one element (or one row sum,
  or one row fold) of its operand, so at an output index the whole branch is the softmax-weighted form of the
  specification, applied to the 288 scores of that output.
-/
import proofs.«124124_j20409684591420_2_alg».proof.Proof.Gen.ReferenceIdeal.Read
import proofs.«124124_j20409684591420_2_alg».proof.Proof.Spec

noncomputable section

open scoped BigOperators

namespace Cert.ReferenceIdeal.RefValue

open Cert.ReferenceIdeal Cert.ReferenceIdeal.Gen Idealize.ShloMosaic Idealize.ShloMosaic.ValueIdx Idealize.ShloMosaic.StableHlo

/-- Arrays of extended reals over a shape. -/
abbrev Arr (s : Shape) : Type := FVec Ideal s .f32

/-! ## Spreading an array over the five coordinates -/

/-- The log-patch array (sample, row, position) repeated over the output channels. -/
def spreadLog (lp : Arr S4x288x30x30) : Arr S4x288x64x30x30 :=
  broadcastInDim S4x288x64x30x30 ![0, 1, 2, 3, 4] bcast_S4x288x1x30x30_S4x288x64x30x30_0_1_2_3_4
    (broadcastInDim S4x288x1x30x30 ![0, 1, 3, 4] bcast_S4x288x30x30_S4x288x1x30x30_0_1_3_4 lp)

theorem spreadLog_apply (lp : Arr S4x288x30x30) (b : Fin 4) (p : Fin 288) (o : Fin 64) (h w : Fin 30) :
    spreadLog lp (ix5 b p o h w) = lp (ix4 b p h w) := by
  unfold spreadLog
  refine (broadcastInDim_apply _ bcast_S4x288x1x30x30_S4x288x64x30x30_0_1_2_3_4 _ (ix5 b p o h w)
    (ix5 b p (0 : Fin 1) h w) (fun a => ?_)).trans
    (broadcastInDim_apply _ bcast_S4x288x30x30_S4x288x1x30x30_0_1_3_4 lp (ix5 b p (0 : Fin 1) h w) (ix4 b p h w) (fun a => ?_))
  · match a with
    | ⟨0, _⟩ => show b.val = if (4 : Nat) = 1 then 0 else b.val; rw [if_neg (by decide)]
    | ⟨1, _⟩ => show p.val = if (288 : Nat) = 1 then 0 else p.val; rw [if_neg (by decide)]
    | ⟨2, _⟩ => show 0 = if (1 : Nat) = 1 then 0 else o.val; rw [if_pos rfl]
    | ⟨3, _⟩ => show h.val = if (30 : Nat) = 1 then 0 else h.val; rw [if_neg (by decide)]
    | ⟨4, _⟩ => show w.val = if (30 : Nat) = 1 then 0 else w.val; rw [if_neg (by decide)]
  · match a with
    | ⟨0, _⟩ => show b.val = if (4 : Nat) = 1 then 0 else b.val; rw [if_neg (by decide)]
    | ⟨1, _⟩ => show p.val = if (288 : Nat) = 1 then 0 else p.val; rw [if_neg (by decide)]
    | ⟨2, _⟩ => show h.val = if (30 : Nat) = 1 then 0 else h.val; rw [if_neg (by decide)]
    | ⟨3, _⟩ => show w.val = if (30 : Nat) = 1 then 0 else w.val; rw [if_neg (by decide)]

/-- The flattened filter bank (row, channel) repeated over the samples and the positions. -/
def spreadKer (kf : Arr S288x64) : Arr S4x288x64x30x30 :=
  broadcastInDim S4x288x64x30x30 ![0, 1, 2, 3, 4] bcast_S1x288x64x1x1_S4x288x64x30x30_0_1_2_3_4
    (broadcastInDim S1x288x64x1x1 ![1, 2] bcast_S288x64_S1x288x64x1x1_1_2 kf)

theorem spreadKer_apply (kf : Arr S288x64) (b : Fin 4) (p : Fin 288) (o : Fin 64) (h w : Fin 30) :
    spreadKer kf (ix5 b p o h w) = kf (ix2 p o) := by
  unfold spreadKer
  refine (broadcastInDim_apply _ bcast_S1x288x64x1x1_S4x288x64x30x30_0_1_2_3_4 _ (ix5 b p o h w)
    (ix5 (0 : Fin 1) p o (0 : Fin 1) (0 : Fin 1)) (fun a => ?_)).trans
    (broadcastInDim_apply _ bcast_S288x64_S1x288x64x1x1_1_2 kf (ix5 (0 : Fin 1) p o (0 : Fin 1) (0 : Fin 1)) (ix2 p o) (fun a => ?_))
  · match a with
    | ⟨0, _⟩ => show 0 = if (1 : Nat) = 1 then 0 else b.val; rw [if_pos rfl]
    | ⟨1, _⟩ => show p.val = if (288 : Nat) = 1 then 0 else p.val; rw [if_neg (by decide)]
    | ⟨2, _⟩ => show o.val = if (64 : Nat) = 1 then 0 else o.val; rw [if_neg (by decide)]
    | ⟨3, _⟩ => show 0 = if (1 : Nat) = 1 then 0 else h.val; rw [if_pos rfl]
    | ⟨4, _⟩ => show 0 = if (1 : Nat) = 1 then 0 else w.val; rw [if_pos rfl]
  · match a with
    | ⟨0, _⟩ => show p.val = if (288 : Nat) = 1 then 0 else p.val; rw [if_neg (by decide)]
    | ⟨1, _⟩ => show o.val = if (64 : Nat) = 1 then 0 else o.val; rw [if_neg (by decide)]

/-- An array over the outputs (sample, channel, position) repeated over the 288 rows. -/
def spreadOut (y : Arr S4x64x30x30) : Arr S4x288x64x30x30 :=
  broadcastInDim S4x288x64x30x30 ![0, 1, 2, 3, 4] bcast_S4x1x64x30x30_S4x288x64x30x30_0_1_2_3_4
    (broadcastInDim S4x1x64x30x30 ![0, 2, 3, 4] bcast_S4x64x30x30_S4x1x64x30x30_0_2_3_4 y)

theorem spreadOut_apply (y : Arr S4x64x30x30) (b : Fin 4) (p : Fin 288) (o : Fin 64) (h w : Fin 30) :
    spreadOut y (ix5 b p o h w) = y (ix4 b o h w) := by
  unfold spreadOut
  refine (broadcastInDim_apply _ bcast_S4x1x64x30x30_S4x288x64x30x30_0_1_2_3_4 _ (ix5 b p o h w)
    (ix5 b (0 : Fin 1) o h w) (fun a => ?_)).trans
    (broadcastInDim_apply _ bcast_S4x64x30x30_S4x1x64x30x30_0_2_3_4 y (ix5 b (0 : Fin 1) o h w) (ix4 b o h w) (fun a => ?_))
  · match a with
    | ⟨0, _⟩ => show b.val = if (4 : Nat) = 1 then 0 else b.val; rw [if_neg (by decide)]
    | ⟨1, _⟩ => show 0 = if (1 : Nat) = 1 then 0 else p.val; rw [if_pos rfl]
    | ⟨2, _⟩ => show o.val = if (64 : Nat) = 1 then 0 else o.val; rw [if_neg (by decide)]
    | ⟨3, _⟩ => show h.val = if (30 : Nat) = 1 then 0 else h.val; rw [if_neg (by decide)]
    | ⟨4, _⟩ => show w.val = if (30 : Nat) = 1 then 0 else w.val; rw [if_neg (by decide)]
  · match a with
    | ⟨0, _⟩ => show b.val = if (4 : Nat) = 1 then 0 else b.val; rw [if_neg (by decide)]
    | ⟨1, _⟩ => show o.val = if (64 : Nat) = 1 then 0 else o.val; rw [if_neg (by decide)]
    | ⟨2, _⟩ => show h.val = if (30 : Nat) = 1 then 0 else h.val; rw [if_neg (by decide)]
    | ⟨3, _⟩ => show w.val = if (30 : Nat) = 1 then 0 else w.val; rw [if_neg (by decide)]

/-! ## Summing and folding over the 288 rows -/

/-- An output index with the row coordinate put back. -/
theorem lift_rows (hr : S4x288x64x30x30.Reduces [1] S4x64x30x30) (b : Fin 4) (o : Fin 64) (h w : Fin 30)
    (k : Fin (S4x288x64x30x30.size 1)) : hr.lift (ix4 b o h w) k = ix5 b (⟨k.val, k.isLt⟩ : Fin 288) o h w := by
  funext a
  refine Fin.ext ?_
  match a with
  | ⟨0, _⟩ => rfl
  | ⟨1, _⟩ => rfl
  | ⟨2, _⟩ => rfl
  | ⟨3, _⟩ => rfl
  | ⟨4, _⟩ => rfl

/-- The sum over the rows, started from the zero word. -/
def sumRows (y : Arr S4x288x64x30x30) : Arr S4x64x30x30 :=
  Host.reduceAdd (F := Ideal) y (constant S_ .f32 0x00000000#32) reducesTo_S4x288x64x30x30_S4x64x30x30_d1 h_S_

theorem sumRows_apply (y : Arr S4x288x64x30x30) (b : Fin 4) (o : Fin 64) (h w : Fin 30) :
    sumRows y (ix4 b o h w) = ∑ p : Fin 288, y (ix5 b p o h w) := by
  unfold sumRows
  simp only [Host.reduceAdd, Ideal.hostReduceAdd_def]
  rw [Ideal.hostReduceAdd_single reducesTo_S4x288x64x30x30_S4x64x30x30_d1 (by decide)]
  show Ideal.ofBits .f32 0x00000000#32 + _ = _
  rw [Ideal.ofBits_zero_f32, zero_add]
  exact Finset.sum_congr rfl fun k _ => congrArg y (lift_rows _ b o h w k)

/-- The largest entry over the rows: the fold from the word of minus infinity, then one more maximum against it. -/
def topRows (z : Arr S4x288x64x30x30) : Arr S4x64x30x30 :=
  maximumf (F := Ideal) (broadcastInDim S4x64x30x30 ![] bcast_S_S4x64x30x30 (constant (F := Ideal) S_ .f32 0xFF800000#32))
    (Host.reduce (FloatOps.maximumf (F := Ideal) (φ := .f32)) z (constant (F := Ideal) S_ .f32 0xFF800000#32) reducesTo_S4x288x64x30x30_S4x64x30x30_d1 h_S_)

theorem ofBits_negInf : Ideal.ofBits .f32 0xFF800000#32 = ⊥ := by simp [Ideal.ofBits, Ideal.ieee]

/-- Two folds over the same finite set agree when their operations, starting values and functions do. -/
theorem fold_eq_of {ι β : Type} (op op' : β → β → β) [Std.Commutative op] [Std.Associative op] [Std.Commutative op']
    [Std.Associative op'] (hop : op = op') (c c' : β) (hc : c = c') (f f' : ι → β) (hf : f = f') (s : Finset ι) :
    s.fold op c f = s.fold op' c' f' := by
  subst hop hc hf
  rfl

/-- The fold of the maximum over the rows, from the word of minus infinity. -/
theorem foldRows_apply (z : Arr S4x288x64x30x30) (b : Fin 4) (o : Fin 64) (h w : Fin 30) :
    Host.reduce (FloatOps.maximumf (F := Ideal) (φ := .f32)) z (constant (F := Ideal) S_ .f32 0xFF800000#32)
        reducesTo_S4x288x64x30x30_S4x64x30x30_d1 h_S_ (ix4 b o h w)
      = (Finset.univ : Finset (Fin 288)).fold (max : EReal → EReal → EReal) ⊥ (fun p => z (ix5 b p o h w)) := by
  have hr : S4x288x64x30x30.Reduces [1] S4x64x30x30 := by decide
  rw [Host.reduce_eq_fold_single (FloatOps.maximumf (F := Ideal) (φ := .f32)) z _ reducesTo_S4x288x64x30x30_S4x64x30x30_d1 hr h_S_]
  have hop : (FloatOps.maximumf (F := Ideal) (φ := .f32)) = (max : EReal → EReal → EReal) := rfl
  have hc : constant (F := Ideal) S_ .f32 0xFF800000#32 (Shape.Idx.first h_S_) = (⊥ : EReal) := ofBits_negInf
  have hf : (z ∘ hr.lift (ix4 b o h w)) = fun p : Fin 288 => z (ix5 b p o h w) :=
    funext fun k => congrArg z (lift_rows hr b o h w k)
  exact fold_eq_of _ _ hop _ _ hc _ _ hf _

/-- The broadcast word of minus infinity at an output index. -/
theorem negInf_apply (b : Fin 4) (o : Fin 64) (h w : Fin 30) :
    broadcastInDim S4x64x30x30 ![] bcast_S_S4x64x30x30 (constant (F := Ideal) S_ .f32 0xFF800000#32) (ix4 b o h w) = (⊥ : EReal) := by
  rw [broadcastInDim_apply _ bcast_S_S4x64x30x30 _ (ix4 b o h w) (fun a => a.elim0) (fun a => a.elim0)]
  exact ofBits_negInf

theorem topRows_apply (z : Arr S4x288x64x30x30) (b : Fin 4) (o : Fin 64) (h w : Fin 30) :
    topRows z (ix4 b o h w) = Cert.Spec.top (fun p => z (ix5 b p o h w)) := by
  unfold topRows Cert.Spec.top
  rw [maximumf_apply, negInf_apply, foldRows_apply]

/-! ## The elementwise host operations at an index -/

theorem hostExp_apply {s : Shape} (x : Arr s) (i : s.Idx) : Host.exp (F := Ideal) x i = Ideal.exp (x i) := rfl
theorem hostLog_apply {s : Shape} (x : Arr s) (i : s.Idx) : Host.log (F := Ideal) x i = Ideal.log (x i) := rfl
theorem hostDivf_apply {s : Shape} (x y : Arr s) (i : s.Idx) : Host.divf (F := Ideal) x y i = Ideal.div (x i) (y i) := rfl
theorem hostNegf_apply {s : Shape} (x : Arr s) (i : s.Idx) : Host.negf (F := Ideal) x i = -(x i) := rfl

/-! ## The branch -/

/-- The scores: log-patch entry plus filter entry. -/
def scoreArr (lp : Arr S4x288x30x30) (kf : Arr S288x64) : Arr S4x288x64x30x30 := addf (F := Ideal) (spreadLog lp) (spreadKer kf)

theorem scoreArr_apply (lp : Arr S4x288x30x30) (kf : Arr S288x64) (b : Fin 4) (p : Fin 288) (o : Fin 64) (h w : Fin 30) :
    scoreArr lp kf (ix5 b p o h w) = lp (ix4 b p h w) + kf (ix2 p o) := by
  unfold scoreArr
  rw [addf_apply, spreadLog_apply, spreadKer_apply]

/-- The scores less their largest entry over the rows, exponentiated. -/
def shiftedExp (z : Arr S4x288x64x30x30) : Arr S4x288x64x30x30 :=
  Host.exp (F := Ideal) (subf (F := Ideal) z (spreadOut (topRows z)))

theorem shiftedExp_apply (z : Arr S4x288x64x30x30) (b : Fin 4) (p : Fin 288) (o : Fin 64) (h w : Fin 30) :
    shiftedExp z (ix5 b p o h w) = Ideal.exp (z (ix5 b p o h w) - Cert.Spec.top (fun q => z (ix5 b q o h w))) := by
  unfold shiftedExp
  rw [hostExp_apply, subf_apply, spreadOut_apply, topRows_apply]

/-- The whole branch from its scores. -/
def softArr (z : Arr S4x288x64x30x30) : Arr S4x64x30x30 :=
  Host.exp (F := Ideal) (sumRows (mulf (F := Ideal) z (Host.divf (F := Ideal) (shiftedExp z) (spreadOut (sumRows (shiftedExp z))))))

theorem softArr_apply (z : Arr S4x288x64x30x30) (b : Fin 4) (o : Fin 64) (h w : Fin 30) :
    softArr z (ix4 b o h w) = Cert.Spec.softBranch (fun p => z (ix5 b p o h w)) := by
  unfold softArr Cert.Spec.softBranch
  rw [hostExp_apply, sumRows_apply]
  refine congrArg Ideal.exp (Finset.sum_congr rfl fun p _ => ?_)
  rw [mulf_apply, hostDivf_apply, spreadOut_apply, sumRows_apply, shiftedExp_apply]
  refine congrArg (fun d => z (ix5 b p o h w)
    * Ideal.div (Ideal.exp (z (ix5 b p o h w) - Cert.Spec.top fun q => z (ix5 b q o h w))) d) (Finset.sum_congr rfl fun q _ => ?_)
  exact shiftedExp_apply z b q o h w

end Cert.ReferenceIdeal.RefValue

end
-- ==== Proof.RefRead.lean ====
/-
  The reference program read down to the specification.

  The program cuts the image (and, separately, its negation) into the nine shifted windows and joins them into the 288
  patch rows, clamps them below at the level and takes logarithms; it flattens each filter bank to 288 rows; it runs
  the four (sign, bank) branches, each the softmax-weighted form of its 288 scores; and it combines the four results
  with the signs + − − + and adds the bias of the output channel.  Read at an output index, stage by stage, this is
  the specification's result in the softmax form.
-/
import proofs.«124124_j20409684591420_2_alg».proof.Proof.RefBranch
import proofs.«124124_j20409684591420_2_alg».proof.Proof.LibPatches

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.StableHlo

/-! ## The patch rows and their clamped logarithms -/

/-- Row p of the joined windows of the image at (h, w) is the pixel that row names. -/
theorem patches_pos (x0 : Arr S4x32x32x32) (b : Fin 4) (p : Fin 288) (h w : Fin 30) :
    val_main_v11 (F := Ideal) x0 (ix4 b p h w) = x0 (Cert.Spec.pixel b h w p) := by
  unfold val_main_v11 val_main_v2 val_main_v3 val_main_v4 val_main_v5 val_main_v6 val_main_v7 val_main_v8 val_main_v9 val_main_v10
  exact Cert.LibPatches.patches_apply x0 _ _ _ _ _ _ _ _ _ _ b p h w

/-- The same for the negated image: the negation of that pixel. -/
theorem patches_neg (x0 : Arr S4x32x32x32) (b : Fin 4) (p : Fin 288) (h w : Fin 30) :
    val_main_v25 (F := Ideal) x0 (ix4 b p h w) = -(x0 (Cert.Spec.pixel b h w p)) := by
  unfold val_main_v25 val_main_v16 val_main_v17 val_main_v18 val_main_v19 val_main_v20 val_main_v21 val_main_v22 val_main_v23 val_main_v24
  rw [Cert.LibPatches.patches_apply (val_main_v15 (F := Ideal) x0) _ _ _ _ _ _ _ _ _ _ b p h w]
  unfold val_main_v15
  rw [hostNegf_apply]

/-- The logarithm of an entry clamped below at a word's value, in the extended reals' own operations. -/
theorem logClamp_eq (a : EReal) (c : BitVec 32) :
    FloatOps.hostUnary (F := Ideal) (φ := .f32) .log (FloatOps.maximumf (F := Ideal) (φ := .f32) a (FloatOps.ofBits (F := Ideal) .f32 c))
      = Ideal.log (max a (Ideal.ofBits .f32 c)) := rfl

/-- The log-patch array of the image: the logarithm of the clamped entry. -/
theorem logp_pos (x0 : Arr S4x32x32x32) (b : Fin 4) (p : Fin 288) (h w : Fin 30) :
    val_main_v14 (F := Ideal) x0 (ix4 b p h w) = Ideal.log (Cert.Spec.clamped x0 false b h w p) := by
  rw [val_main_v14_apply, val_main_v13_apply, patches_pos, val_main_v12_apply, val_main_cst_apply, logClamp_eq]
  unfold Cert.Spec.clamped Cert.Spec.level
  rw [if_neg (by decide)]

/-- The log-patch array of the negated image. -/
theorem logp_neg (x0 : Arr S4x32x32x32) (b : Fin 4) (p : Fin 288) (h w : Fin 30) :
    val_main_v28 (F := Ideal) x0 (ix4 b p h w) = Ideal.log (Cert.Spec.clamped x0 true b h w p) := by
  rw [val_main_v28_apply, val_main_v27_apply, patches_neg, val_main_v26_apply, val_main_cst_0_apply, logClamp_eq]
  unfold Cert.Spec.clamped Cert.Spec.level
  rw [if_pos rfl]

/-! ## The flattened filter banks -/

theorem ker_first (x1 : Arr S3x3x32x64) (p : Fin 288) (o : Fin 64) :
    val_main_v0 (F := Ideal) x1 (ix2 p o) = Cert.Spec.weight x1 o p := by
  rw [val_main_v0_apply]
  unfold Cert.Spec.weight
  refine congrArg x1 (funext fun a => Fin.ext ?_)
  have hp := p.isLt
  have ho := o.isLt
  match a with
  | ⟨0, _⟩ => show (p.val * 64 + o.val) / 6144 = p.val / 96; omega
  | ⟨1, _⟩ => show (p.val * 64 + o.val) / 2048 % 3 = p.val / 32 % 3; omega
  | ⟨2, _⟩ => show (p.val * 64 + o.val) / 64 % 32 = p.val % 32; omega
  | ⟨3, _⟩ => show (p.val * 64 + o.val) % 64 = o.val; omega

theorem ker_second (x2 : Arr S3x3x32x64) (p : Fin 288) (o : Fin 64) :
    val_main_v1 (F := Ideal) x2 (ix2 p o) = Cert.Spec.weight x2 o p := by
  rw [val_main_v1_apply]
  unfold Cert.Spec.weight
  refine congrArg x2 (funext fun a => Fin.ext ?_)
  have hp := p.isLt
  have ho := o.isLt
  match a with
  | ⟨0, _⟩ => show (p.val * 64 + o.val) / 6144 = p.val / 96; omega
  | ⟨1, _⟩ => show (p.val * 64 + o.val) / 2048 % 3 = p.val / 32 % 3; omega
  | ⟨2, _⟩ => show (p.val * 64 + o.val) / 64 % 32 = p.val % 32; omega
  | ⟨3, _⟩ => show (p.val * 64 + o.val) % 64 = o.val; omega

/-! ## The four branches -/

/-- The image against the first bank. -/
theorem branch_pos_first_eq (x0 : Arr S4x32x32x32) (x1 : Arr S3x3x32x64) :
    val_main_v47 (F := Ideal) x0 x1 = softArr (scoreArr (val_main_v14 (F := Ideal) x0) (val_main_v0 (F := Ideal) x1)) := rfl

theorem branch_pos_first_at (x0 : Arr S4x32x32x32) (x1 : Arr S3x3x32x64) (b : Fin 4) (o : Fin 64) (h w : Fin 30) :
    val_main_v47 (F := Ideal) x0 x1 (ix4 b o h w) = Cert.Spec.softBranch (Cert.Spec.score x0 x1 false b o h w) := by
  rw [branch_pos_first_eq, softArr_apply]
  refine congrArg Cert.Spec.softBranch (funext fun p => ?_)
  unfold Cert.Spec.score
  rw [scoreArr_apply, logp_pos, ker_first]

/-- The image against the second bank. -/
theorem branch_pos_second_eq (x0 : Arr S4x32x32x32) (x2 : Arr S3x3x32x64) :
    val_main_v66 (F := Ideal) x0 x2 = softArr (scoreArr (val_main_v14 (F := Ideal) x0) (val_main_v1 (F := Ideal) x2)) := rfl

theorem branch_pos_second_at (x0 : Arr S4x32x32x32) (x2 : Arr S3x3x32x64) (b : Fin 4) (o : Fin 64) (h w : Fin 30) :
    val_main_v66 (F := Ideal) x0 x2 (ix4 b o h w) = Cert.Spec.softBranch (Cert.Spec.score x0 x2 false b o h w) := by
  rw [branch_pos_second_eq, softArr_apply]
  refine congrArg Cert.Spec.softBranch (funext fun p => ?_)
  unfold Cert.Spec.score
  rw [scoreArr_apply, logp_pos, ker_second]

/-- The negated image against the first bank. -/
theorem branch_neg_first_eq (x0 : Arr S4x32x32x32) (x1 : Arr S3x3x32x64) :
    val_main_v85 (F := Ideal) x0 x1 = softArr (scoreArr (val_main_v28 (F := Ideal) x0) (val_main_v0 (F := Ideal) x1)) := rfl

theorem branch_neg_first_at (x0 : Arr S4x32x32x32) (x1 : Arr S3x3x32x64) (b : Fin 4) (o : Fin 64) (h w : Fin 30) :
    val_main_v85 (F := Ideal) x0 x1 (ix4 b o h w) = Cert.Spec.softBranch (Cert.Spec.score x0 x1 true b o h w) := by
  rw [branch_neg_first_eq, softArr_apply]
  refine congrArg Cert.Spec.softBranch (funext fun p => ?_)
  unfold Cert.Spec.score
  rw [scoreArr_apply, logp_neg, ker_first]

/-- The negated image against the second bank. -/
theorem branch_neg_second_eq (x0 : Arr S4x32x32x32) (x2 : Arr S3x3x32x64) :
    val_main_v104 (F := Ideal) x0 x2 = softArr (scoreArr (val_main_v28 (F := Ideal) x0) (val_main_v1 (F := Ideal) x2)) := rfl

theorem branch_neg_second_at (x0 : Arr S4x32x32x32) (x2 : Arr S3x3x32x64) (b : Fin 4) (o : Fin 64) (h w : Fin 30) :
    val_main_v104 (F := Ideal) x0 x2 (ix4 b o h w) = Cert.Spec.softBranch (Cert.Spec.score x0 x2 true b o h w) := by
  rw [branch_neg_second_eq, softArr_apply]
  refine congrArg Cert.Spec.softBranch (funext fun p => ?_)
  unfold Cert.Spec.score
  rw [scoreArr_apply, logp_neg, ker_second]

/-! ## The result -/

/-- **The reference's result at an output index is the specification's softmax form.** -/
theorem result_at (x0 : (⟨S4x32x32x32, .f32⟩ : BufTy).Contents (Elt Ideal)) (x1 x2 : (⟨S3x3x32x64, .f32⟩ : BufTy).Contents (Elt Ideal))
    (x3 : (⟨S64, .f32⟩ : BufTy).Contents (Elt Ideal)) (b : Fin 4) (o : Fin 64) (h w : Fin 30) :
    Cert.ReferenceIdeal.Read.val_main_v110 (F := Ideal) x0 x1 x2 x3 (ix4 b o h w) = Cert.Spec.refOut x0 x1 x2 x3 b o h w := by
  rw [val_main_v110_apply, val_main_v107_apply, val_main_v106_apply, val_main_v105_apply, branch_pos_first_at,
    branch_pos_second_at, branch_neg_first_at, branch_neg_second_at, val_main_v109_apply, val_main_v108_apply]
  unfold Cert.Spec.refOut
  simp only [Ideal.addf_def, Ideal.subf_def]
  refine congrArg (_ + ·) (congrArg x3 (funext fun a => Fin.ext ?_))
  match a with
  | ⟨0, _⟩ => rfl

end Cert.ReferenceIdeal.RefValue

end
-- ==== Proof.lean ====
/-
  The certificate: the kernel program, its reading over the extended reals and the reference all run to the end without
  a fault and leave their arguments unchanged, and over the extended reals the kernel program and the reference end with
  the same result, entry by entry, when every input entry is finite.

  The kernel program: the host cuts 3 x 3 patches of the image and of its negation, clamps them below at one tenth, and
  hands the region the clamped patches a, the products log a · a, and the weights e^k and k e^k of the two filter banks;
  the region forms  exp ((Σ_p (log a_p · a_p) e^{k_p} + Σ_p a_p (k_p e^{k_p})) / Σ_p a_p e^{k_p})  for every sample, sign, bank,
  output channel and position, and the host combines the four (sign, bank) branches with the bias.
  The reference forms  exp (Σ_p z_p softmax(z)_p)  with z_p = log a_p + k_p for the same branches and combines them the
  same way.  For real z the two agree: e^{z_p − M} = a_p e^{k_p} e^{−M} for any real M, and the factor e^{−M} cancels in the
  softmax; z is real because a ≥ 1/10 > 0 and the inputs are finite.  (The bias may be anything.)

  The parts: the run of the kernel program around its region and the frames (BitsFrame, IdealFrame), the region's result
  array (BlockValue), the host lines before and after it read at an index (HostPre, HostTail), the reference read down to
  the same specification (RefRead), the law joining the two forms (Law) and the inputs' finiteness from the precondition
  (Finite).
-/
import proofs.«124124_j20409684591420_2_alg».proof.Defs
import proofs.«124124_j20409684591420_2_alg».proof.Proof.Gen.Kernel
import proofs.«124124_j20409684591420_2_alg».proof.Proof.Gen.Kernel.Skeleton
import proofs.«124124_j20409684591420_2_alg».proof.Proof.Gen.Kernel.Launch
import proofs.«124124_j20409684591420_2_alg».proof.Proof.Gen.Kernel.Points
import proofs.«124124_j20409684591420_2_alg».proof.Proof.Gen.KernelIdeal
import proofs.«124124_j20409684591420_2_alg».proof.Proof.Gen.KernelIdeal.Skeleton
import proofs.«124124_j20409684591420_2_alg».proof.Proof.Gen.KernelIdeal.Launch
import proofs.«124124_j20409684591420_2_alg».proof.Proof.Gen.KernelIdeal.Points
import proofs.«124124_j20409684591420_2_alg».proof.Proof.Gen.ReferenceIdeal
import proofs.«124124_j20409684591420_2_alg».proof.Proof.Gen.Pre_finite_inputs
import proofs.«124124_j20409684591420_2_alg».proof.Proof.Gen.ReferenceIdeal.Read
import proofs.«124124_j20409684591420_2_alg».proof.Proof.BitsFrame
import proofs.«124124_j20409684591420_2_alg».proof.Proof.IdealFrame
import proofs.«124124_j20409684591420_2_alg».proof.Proof.HostTail
import proofs.«124124_j20409684591420_2_alg».proof.Proof.Law
import proofs.«124124_j20409684591420_2_alg».proof.Proof.Finite
import proofs.«124124_j20409684591420_2_alg».proof.Proof.RefRead
import Idealize.ShloMosaic.Adequacy
import Idealize.ShloMosaic.Init

noncomputable section

namespace Cert.Proof

open Idealize.ShloMosaic Idealize.ShloMosaic.ValueIdx Idealize.SL.Sem

/-- The kernel program as printed runs to the end and keeps its arguments. -/
theorem frame_k : Cert.frame_Kernel := fun m ρ _ => Cert.Kernel.Fr.frame m ρ

/-- So does its reading over the extended reals. -/
theorem frame_ki : Cert.frame_KernelIdeal := fun m ρ _ => Cert.KernelIdeal.Fr.frame m ρ

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- The kernel program's result buffer after its run, on core `c`. -/
abbrev kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v67) :=
  Pipeline.afterTail₀ Cert.KernelIdeal.cfgs (Cert.KernelIdeal.Fr.dats m) 0 (Cert.KernelIdeal.Fr.V0 m) [Cert.KernelIdeal.Gen.hostOps1 (F := Ideal)] c Cert.KernelIdeal.main_v67

/-- From memories that agree on the arguments, all finite, the reference's result is the kernel program's: entry by entry
    the first is the softmax form, the second the ratio form, and the law joins them. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v110 m' c = kernelResult m c := by
  obtain ⟨hx, hk1, hk2⟩ := Cert.Finite.of_pre m hpre c
  rw [Cert.ReferenceIdeal.Read.val_main_v110_eq, h0, h1, h2, h3]
  funext i
  obtain ⟨b, o, h, w, rfl⟩ : ∃ (b : Fin 4) (o : Fin 64) (h w : Fin 30), i = ix4 b o h w := ⟨i 0, i 1, i 2, i 3, eq_ix4 i⟩
  refine (Cert.ReferenceIdeal.RefValue.result_at _ _ _ _ b o h w).trans ?_
  refine (Cert.Spec.refOut_eq_kerOut _ _ _ _ hx hk1 hk2 b o h w).trans ?_
  exact (Cert.KernelIdeal.Tail.kernel_at m c b o h w).symm

/-- Over the extended reals the two programs, run from memories agreeing on finite arguments, end with equal results and
    unchanged arguments. -/
theorem algebraic : Cert.algebraic_KernelIdeal_ReferenceIdeal := by
  intro m ρ m' ρ' hpre hagree
  refine ⟨fun c => kernelResult m c, ?_, ?_⟩
  · exact (θ_run Cert.KernelIdeal.defs _ _).mono (fun _ h c =>
      ⟨(h c).2 Cert.KernelIdeal.main_v67 (Pipeline.mem_restRefs_of Cert.KernelIdeal.main_v67 (by decide) (by decide)),
       ((h c).2 Cert.KernelIdeal.main_arg0 (Pipeline.mem_restRefs_of Cert.KernelIdeal.main_arg0 (by decide) (by decide))).trans
         (Cert.KernelIdeal.Fr.tail_arg m (Cert.KernelIdeal.Fr.dats m) c Cert.KernelIdeal.main_arg0 (by simp)),
       ((h c).2 Cert.KernelIdeal.main_arg1 (Pipeline.mem_restRefs_of Cert.KernelIdeal.main_arg1 (by decide) (by decide))).trans
         (Cert.KernelIdeal.Fr.tail_arg m (Cert.KernelIdeal.Fr.dats m) c Cert.KernelIdeal.main_arg1 (by simp)),
       ((h c).2 Cert.KernelIdeal.main_arg2 (Pipeline.mem_restRefs_of Cert.KernelIdeal.main_arg2 (by decide) (by decide))).trans
         (Cert.KernelIdeal.Fr.tail_arg m (Cert.KernelIdeal.Fr.dats m) c Cert.KernelIdeal.main_arg2 (by simp)),
       ((h c).2 Cert.KernelIdeal.main_arg3 (Pipeline.mem_restRefs_of Cert.KernelIdeal.main_arg3 (by decide) (by decide))).trans
         (Cert.KernelIdeal.Fr.tail_arg m (Cert.KernelIdeal.Fr.dats m) c Cert.KernelIdeal.main_arg3 (by simp))⟩)
      (Cert.KernelIdeal.Fr.run_main (F := Ideal) m ρ)
  · exact (θ_run Cert.ReferenceIdeal.defs _ _).mono (fun _ h c =>
      ⟨(h c).1.trans (results_agree m m' hpre c (hagree c).1 (hagree c).2.1 (hagree c).2.2.1 (hagree c).2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
